-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x48x128 : Shape := ⟨3, ![64, 48, 128]⟩
abbrev S128x64 : Shape := ⟨2, ![128, 64]⟩
abbrev S128 : Shape := ⟨1, ![128]⟩
abbrev S128x32 : Shape := ⟨2, ![128, 32]⟩
abbrev S_ : Shape := ⟨0, ![]⟩

class Facts : Prop where
  bcast_S_S64x48x128 : S_.BroadcastsInDim S64x48x128 (![] : Fin 0 → Fin S64x48x128.rank)
  reducesTo_S64x48x128_S_d0_1_2 : S64x48x128.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_

variable [Facts]

def fn_part1 {F : FTy → Type} [FloatOps F] (main_arg5 : FVec F S128x64 .f32) (main_arg6 : FVec F S128 .f32) (main_arg7 : FVec F S128x32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  main_v33

def fn {F : FTy → Type} [FloatOps F] (main_arg0 : FVec F S64x48x128 .f32) (main_arg1 : IVec S64x48x128 32) (main_arg2 : FVec F S128x64 .f32) (main_arg3 : FVec F S128x64 .f32) (main_arg4 : FVec F S128x64 .f32) (main_arg5 : FVec F S128x64 .f32) (main_arg6 : FVec F S128 .f32) (main_arg7 : FVec F S128x32 .f32) : IVec S_ 1 :=
  let main_v0 : FVec F S64x48x128 .f32 := Host.absf main_arg0
  let main_cst : FVec F S_ .f32 := constant S_ .f32 0x7F800000#32
  let main_v1 : FVec F S64x48x128 .f32 := broadcastInDim S64x48x128 ![] bcast_S_S64x48x128 main_cst
  let main_v2 : IVec S64x48x128 1 := cmpf .olt main_v0 main_v1
  let main_c : IVec S_ 1 := constantI S_ 1 1#1
  let main_v3 : IVec S_ 1 := (fun x v => Host.reduce IntOp.andi x v reducesTo_S64x48x128_S_d0_1_2 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S64x48x128 : Shape := ⟨3, ![64, 48, 128]⟩
abbrev S128x64 : Shape := ⟨2, ![128, 64]⟩
abbrev S128 : Shape := ⟨1, ![128]⟩
abbrev S128x32 : Shape := ⟨2, ![128, 32]⟩
abbrev S_ : Shape := ⟨0, ![]⟩
abbrev S64x128 : Shape := ⟨2, ![64, 128]⟩
abbrev S64x1x128 : Shape := ⟨3, ![64, 1, 128]⟩
abbrev S3072x128 : Shape := ⟨2, ![3072, 128]⟩
abbrev S128x1 : Shape := ⟨2, ![128, 1]⟩
abbrev S3072x128x32 : Shape := ⟨3, ![3072, 128, 32]⟩
abbrev S32x128 : Shape := ⟨2, ![32, 128]⟩
abbrev S32x128x32 : Shape := ⟨3, ![32, 128, 32]⟩
abbrev S32x128x1 : Shape := ⟨3, ![32, 128, 1]⟩
abbrev S1x128x64 : Shape := ⟨3, ![1, 128, 64]⟩
abbrev S32x128x64 : Shape := ⟨3, ![32, 128, 64]⟩
abbrev S32x128x128 : Shape := ⟨3, ![32, 128, 128]⟩
abbrev S1x128x1 : Shape := ⟨3, ![1, 128, 1]⟩
abbrev S128x128 : Shape := ⟨2, ![128, 128]⟩
abbrev S1x128x128 : Shape := ⟨3, ![1, 128, 128]⟩
abbrev S4096x128 : Shape := ⟨2, ![4096, 128]⟩
abbrev S4096x32 : Shape := ⟨2, ![4096, 32]⟩
abbrev S64x48x4096 : Shape := ⟨3, ![64, 48, 4096]⟩

abbrev nBuf : Space → Nat
  | .hbm => 21
  | .vmem => 12
  | .smem => 0
  | _ => 0

abbrev bufTy : (tb : Table) → Fin (tcTables nBuf tb) → BufTy
  | .hbm, ⟨0, _⟩ => ⟨S64x48x128, .f32⟩
  | .hbm, ⟨1, _⟩ => ⟨S64x48x128, .i32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128, .f32⟩
  | .hbm, ⟨7, _⟩ => ⟨S128x32, .f32⟩
  | .hbm, ⟨8, _⟩ => ⟨S_, .i32⟩
  | .hbm, ⟨9, _⟩ => ⟨S64x128, .i32⟩
  | .hbm, ⟨10, _⟩ => ⟨S_, .i32⟩
  | .hbm, ⟨11, _⟩ => ⟨S64x128, .i32⟩
  | .hbm, ⟨12, _⟩ => ⟨S64x128, .i1⟩
  | .hbm, ⟨13, _⟩ => ⟨S64x128, .f32⟩
  | .hbm, ⟨14, _⟩ => ⟨S64x1x128, .f32⟩
  | .hbm, ⟨15, _⟩ => ⟨S64x48x128, .f32⟩
  | .hbm, ⟨16, _⟩ => ⟨S3072x128, .f32⟩
  | .hbm, ⟨17, _⟩ => ⟨S3072x128, .f32⟩
  | .hbm, ⟨18, _⟩ => ⟨S128x1, .f32⟩
  | .hbm, ⟨19, _⟩ => ⟨S3072x128x32, .f32⟩
  | .hbm, ⟨20, _⟩ => ⟨S64x48x4096, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x1, .f32⟩
  | .local _ .vmem, ⟨9, _⟩ => ⟨S128x32, .f32⟩
  | .local _ .vmem, ⟨10, _⟩ => ⟨S32x128x32, .f32⟩
  | .local _ .vmem, ⟨11, _⟩ => ⟨S32x128x32, .f32⟩
  | _, _ => ⟨S64x48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x128x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  reducesTo_S64x48x128_S64x128_d1 : S64x48x128.ReducesTo [1] S64x128
  h_S_ : 0 < S_.numel
  bcast_S_S64x128 : S_.BroadcastsInDim S64x128 (![] : Fin 0 → Fin S64x128.rank)
  bcast_S64x128_S64x1x128_0_2 : S64x128.BroadcastsInDim S64x1x128 (![0, 2] : Fin 2 → Fin S64x1x128.rank)
  bcast_S64x1x128_S64x48x128_0_1_2 : S64x1x128.BroadcastsInDim S64x48x128 (![0, 1, 2] : Fin 3 → Fin S64x48x128.rank)
  shapeCasts_S64x48x128_S3072x128 : S64x48x128.ShapeCasts S3072x128
  shapeCasts_S128_S128x1 : S128.ShapeCasts S128x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x64_S128x64_0_0 : ∀ a, (![0, 0] : Fin 2 → Nat) a + S128x64.size a ≤ S128x64.size a
  h_S128x64 : 0 < S128x64.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x32_S128x32_0_0 : ∀ a, (![0, 0] : Fin 2 → Nat) a + S128x32.size a ≤ S128x32.size a
  h_S128x32 : 0 < S128x32.numel
  shapeCasts_S32x128_S32x128x1 : S32x128.ShapeCasts S32x128x1
  shapeCasts_S128x64_S1x128x64 : S128x64.ShapeCasts S1x128x64
  broadcasts_S32x128x1_S32x128x64 : S32x128x1.Broadcasts S32x128x64
  broadcasts_S1x128x64_S32x128x64 : S1x128x64.Broadcasts S32x128x64
  bitsLt_bf16_f32 : FTy.bits .bf16 < FTy.bits .f32
  shapeCasts_S128x1_S1x128x1 : S128x1.ShapeCasts S1x128x1
  broadcasts_S1x128x1_S32x128x128 : S1x128x1.Broadcasts S32x128x128
  iota_S128x128_d0_w32 : S128x128.Iotas .tc 32 [0]
  iota_S128x128_d1_w32 : S128x128.Iotas .tc 32 [1]
  natLt_1_32 : 1 < 32
  shapeCasts_S128x128_S1x128x128 : S128x128.ShapeCasts S1x128x128
  broadcasts_S1x128x128_S32x128x128 : S1x128x128.Broadcasts S32x128x128
  reduces_S32x128x128_S32x128 : S32x128x128.Reduces [2] S32x128
  broadcasts_S32x128x1_S32x128x128 : S32x128x1.Broadcasts S32x128x128
  concatenates_S32x128x64_S32x128x64_S32x128x128_d2 : Shape.Concatenates [S32x128x64, S32x128x64] S32x128x128 2
  shapeCasts_S32x128x128_S4096x128 : S32x128x128.ShapeCasts S4096x128
  shapeCasts_S4096x32_S32x128x32 : S4096x32.ShapeCasts S32x128x32
  inb_S32x128x32_S32x128x32_0_0_0 : ∀ a, (![0, 0, 0] : Fin 3 → Nat) a + S32x128x32.size a ≤ S32x128x32.size a
  h_S32x128x32 : 0 < S32x128x32.numel
  shapeCasts_S3072x128x32_S64x48x4096 : S3072x128x32.ShapeCasts S64x48x4096
  dot_S32x128x64_S32x128x64_S32x128x128_2_2_1_1_0_0_wf : DotDims.WF S32x128x64 S32x128x64 S32x128x128 [2] [2] [1] [1] [0] [0]
  dot_S32x128x128_S32x128x64_S32x128x64_2_1_1_2_0_0_wf : DotDims.WF S32x128x128 S32x128x64 S32x128x64 [2] [1] [1] [2] [0] [0]
  dot_S4096x128_S128x32_S4096x32_1_0_0_1_n_n_wf : DotDims.WF S4096x128 S128x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S3072x128.size a
  hwx0_0 : ∀ i : grid0.Coords, EltTy.bits .f32 = 32 ∨ (Rect.block (s := S3072x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S3072x128.size a
  hwx0_1 : ∀ i : grid0.Coords, EltTy.bits .f32 = 32 ∨ (Rect.block (s := S3072x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x32.size a ≤ S128x32.size a
  hwx0_7 : ∀ i : grid0.Coords, EltTy.bits .f32 = 32 ∨ (Rect.block (s := S128x32) S128x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128x32.size a ≤ S3072x128x32.size a
  hwx0_8 : ∀ i : grid0.Coords, EltTy.bits .f32 = 32 ∨ (Rect.block (s := S3072x128x32) S32x128x32.size (cc0_transform_8 i) (hinb0_8 i)).WholeWords (EltTy.packing .f32)

variable [Facts₀]

def dot_S32x128x64_S32x128x64_S32x128x128_2_2_1_1_0_0 : DotDims S32x128x64 S32x128x64 S32x128x128 where
  lhsContracting := [2]
  rhsContracting := [2]
  lhsNonContracting := [1]
  rhsNonContracting := [1]
  lhsBatch := [0]
  rhsBatch := [0]
  wf := dot_S32x128x64_S32x128x64_S32x128x128_2_2_1_1_0_0_wf
def dot_S32x128x128_S32x128x64_S32x128x64_2_1_1_2_0_0 : DotDims S32x128x128 S32x128x64 S32x128x64 where
  lhsContracting := [2]
  rhsContracting := [1]
  lhsNonContracting := [1]
  rhsNonContracting := [2]
  lhsBatch := [0]
  rhsBatch := [0]
  wf := dot_S32x128x128_S32x128x64_S32x128x64_2_1_1_2_0_0_wf
def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf

abbrev win0_0 : Pipeline.Window sig grid0 :=
  Pipeline.Window.ofSpec (Memref.whole main_v7) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S32x128x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x48x128 : Shape := ⟨3, ![64, 48, 128]⟩
abbrev S128x64 : Shape := ⟨2, ![128, 64]⟩
abbrev S128 : Shape := ⟨1, ![128]⟩
abbrev S128x32 : Shape := ⟨2, ![128, 32]⟩
abbrev S_ : Shape := ⟨0, ![]⟩
abbrev S64x128 : Shape := ⟨2, ![64, 128]⟩
abbrev S64x1x128x1 : Shape := ⟨4, ![64, 1, 128, 1]⟩
abbrev S64x48x128x1 : Shape := ⟨4, ![64, 48, 128, 1]⟩
abbrev S1x1x128x64 : Shape := ⟨4, ![1, 1, 128, 64]⟩
abbrev S64x48x128x64 : Shape := ⟨4, ![64, 48, 128, 64]⟩
abbrev S64x1x128x64 : Shape := ⟨4, ![64, 1, 128, 64]⟩
abbrev S64x48x128x128 : Shape := ⟨4, ![64, 48, 128, 128]⟩
abbrev S128x1 : Shape := ⟨2, ![128, 1]⟩
abbrev S1x1x128x1 : Shape := ⟨4, ![1, 1, 128, 1]⟩
abbrev S128x128 : Shape := ⟨2, ![128, 128]⟩
abbrev S1x1x128x128 : Shape := ⟨4, ![1, 1, 128, 128]⟩
abbrev S64x48x128x32 : Shape := ⟨4, ![64, 48, 128, 32]⟩
abbrev S64x48x4096 : Shape := ⟨3, ![64, 48, 4096]⟩

abbrev nBuf : Space → Nat
  | .hbm => 93
  | .vmem => 0
  | .smem => 0
  | _ => 0

abbrev bufTy : (tb : Table) → Fin (tcTables nBuf tb) → BufTy
  | .hbm, ⟨0, _⟩ => ⟨S64x48x128, .f32⟩
  | .hbm, ⟨1, _⟩ => ⟨S64x48x128, .i32⟩
  | .hbm, ⟨2, _⟩ => ⟨S128x64, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128, .f32⟩
  | .hbm, ⟨7, _⟩ => ⟨S128x32, .f32⟩
  | .hbm, ⟨8, _⟩ => ⟨S_, .i32⟩
  | .hbm, ⟨9, _⟩ => ⟨S64x128, .i32⟩
  | .hbm, ⟨10, _⟩ => ⟨S_, .i32⟩
  | .hbm, ⟨11, _⟩ => ⟨S64x128, .i32⟩
  | .hbm, ⟨12, _⟩ => ⟨S64x128, .i1⟩
  | .hbm, ⟨13, _⟩ => ⟨S64x128, .f32⟩
  | .hbm, ⟨14, _⟩ => ⟨S64x1x128x1, .f32⟩
  | .hbm, ⟨15, _⟩ => ⟨S64x48x128x1, .f32⟩
  | .hbm, ⟨16, _⟩ => ⟨S_, .f32⟩
  | .hbm, ⟨17, _⟩ => ⟨S64x1x128x1, .f32⟩
  | .hbm, ⟨18, _⟩ => ⟨S64x1x128x1, .f32⟩
  | .hbm, ⟨19, _⟩ => ⟨S64x48x128x1, .f32⟩
  | .hbm, ⟨20, _⟩ => ⟨S64x48x128x1, .f32⟩
  | .hbm, ⟨21, _⟩ => ⟨S1x1x128x64, .f32⟩
  | .hbm, ⟨22, _⟩ => ⟨S64x48x128x64, .f32⟩
  | .hbm, ⟨23, _⟩ => ⟨S64x48x128x64, .f32⟩
  | .hbm, ⟨24, _⟩ => ⟨S64x48x128x64, .f32⟩
  | .hbm, ⟨25, _⟩ => ⟨S_, .f32⟩
  | .hbm, ⟨26, _⟩ => ⟨S64x1x128x1, .f32⟩
  | .hbm, ⟨27, _⟩ => ⟨S64x1x128x1, .f32⟩
  | .hbm, ⟨28, _⟩ => ⟨S64x48x128x1, .f32⟩
  | .hbm, ⟨29, _⟩ => ⟨S64x48x128x1, .f32⟩
  | .hbm, ⟨30, _⟩ => ⟨S1x1x128x64, .f32⟩
  | .hbm, ⟨31, _⟩ => ⟨S64x48x128x64, .f32⟩
  | .hbm, ⟨32, _⟩ => ⟨S64x48x128x64, .f32⟩
  | .hbm, ⟨33, _⟩ => ⟨S64x48x128x64, .f32⟩
  | .hbm, ⟨34, _⟩ => ⟨S64x48x128x64, .f32⟩
  | .hbm, ⟨35, _⟩ => ⟨S_, .f32⟩
  | .hbm, ⟨36, _⟩ => ⟨S64x48x128x64, .f32⟩
  | .hbm, ⟨37, _⟩ => ⟨S64x48x128x64, .f32⟩
  | .hbm, ⟨38, _⟩ => ⟨S_, .f32⟩
  | .hbm, ⟨39, _⟩ => ⟨S64x1x128x1, .f32⟩
  | .hbm, ⟨40, _⟩ => ⟨S64x1x128x1, .f32⟩
  | .hbm, ⟨41, _⟩ => ⟨S1x1x128x64, .f32⟩
  | .hbm, ⟨42, _⟩ => ⟨S64x1x128x64, .f32⟩
  | .hbm, ⟨43, _⟩ => ⟨S64x1x128x64, .f32⟩
  | .hbm, ⟨44, _⟩ => ⟨S64x1x128x64, .f32⟩
  | .hbm, ⟨45, _⟩ => ⟨S64x48x128x64, .f32⟩
  | .hbm, ⟨46, _⟩ => ⟨S64x48x128x64, .f32⟩
  | .hbm, ⟨47, _⟩ => ⟨S1x1x128x64, .f32⟩
  | .hbm, ⟨48, _⟩ => ⟨S64x48x128x64, .f32⟩
  | .hbm, ⟨49, _⟩ => ⟨S64x48x128x64, .f32⟩
  | .hbm, ⟨50, _⟩ => ⟨S64x48x128x128, .f32⟩
  | .hbm, ⟨51, _⟩ => ⟨S128x1, .f32⟩
  | .hbm, ⟨52, _⟩ => ⟨S1x1x128x1, .f32⟩
  | .hbm, ⟨53, _⟩ => ⟨S64x48x128x128, .f32⟩
  | .hbm, ⟨54, _⟩ => ⟨S64x48x128x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S64x48x128x128, .f32⟩
  | .hbm, ⟨59, _⟩ => ⟨S64x48x128x128, .f32⟩
  | .hbm, ⟨60, _⟩ => ⟨S_, .f32⟩
  | .hbm, ⟨61, _⟩ => ⟨S64x48x128x128, .f32⟩
  | .hbm, ⟨62, _⟩ => ⟨S64x48x128x128, .f32⟩
  | .hbm, ⟨63, _⟩ => ⟨S128x128, .i32⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S128x128, .f32⟩
  | .hbm, ⟨70, _⟩ => ⟨S_, .f32⟩
  | .hbm, ⟨71, _⟩ => ⟨S128x128, .f32⟩
  | .hbm, ⟨72, _⟩ => ⟨S128x128, .f32⟩
  | .hbm, ⟨73, _⟩ => ⟨S64x48x128x128, .f32⟩
  | .hbm, ⟨74, _⟩ => ⟨S1x1x128x128, .f32⟩
  | .hbm, ⟨75, _⟩ => ⟨S64x48x128x128, .f32⟩
  | .hbm, ⟨76, _⟩ => ⟨S64x48x128x128, .f32⟩
  | .hbm, ⟨77, _⟩ => ⟨S_, .f32⟩
  | .hbm, ⟨78, _⟩ => ⟨S64x48x128, .f32⟩
  | .hbm, ⟨79, _⟩ => ⟨S64x48x128x1, .f32⟩
  | .hbm, ⟨80, _⟩ => ⟨S_, .f32⟩
  | .hbm, ⟨81, _⟩ => ⟨S64x48x128x1, .f32⟩
  | .hbm, ⟨82, _⟩ => ⟨S64x48x128x1, .f32⟩
  | .hbm, ⟨83, _⟩ => ⟨S64x48x128x128, .f32⟩
  | .hbm, ⟨84, _⟩ => ⟨S64x48x128x128, .f32⟩
  | .hbm, ⟨85, _⟩ => ⟨S64x48x128x64, .f32⟩
  | .hbm, ⟨86, _⟩ => ⟨S64x48x128x64, .f32⟩
  | .hbm, ⟨87, _⟩ => ⟨S64x48x128x128, .f32⟩
  | .hbm, ⟨88, _⟩ => ⟨S_, .f32⟩
  | .hbm, ⟨89, _⟩ => ⟨S64x48x128x128, .f32⟩
  | .hbm, ⟨90, _⟩ => ⟨S64x48x128x128, .f32⟩
  | .hbm, ⟨91, _⟩ => ⟨S64x48x128x32, .f32⟩
  | .hbm, ⟨92, _⟩ => ⟨S64x48x4096, .f32⟩
  | _, _ => ⟨S64x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  reducesTo_S64x48x128_S64x128_d1 : S64x48x128.ReducesTo [1] S64x128
  h_S_ : 0 < S_.numel
  bcast_S_S64x128 : S_.BroadcastsInDim S64x128 (![] : Fin 0 → Fin S64x128.rank)
  bcast_S64x128_S64x1x128x1_0_2 : S64x128.BroadcastsInDim S64x1x128x1 (![0, 2] : Fin 2 → Fin S64x1x128x1.rank)
  bcast_S64x48x128_S64x48x128x1_0_1_2 : S64x48x128.BroadcastsInDim S64x48x128x1 (![0, 1, 2] : Fin 3 → Fin S64x48x128x1.rank)
  bcast_S_S64x1x128x1 : S_.BroadcastsInDim S64x1x128x1 (![] : Fin 0 → Fin S64x1x128x1.rank)
  bcast_S64x1x128x1_S64x48x128x1_0_1_2_3 : S64x1x128x1.BroadcastsInDim S64x48x128x1 (![0, 1, 2, 3] : Fin 4 → Fin S64x48x128x1.rank)
  bcast_S128x64_S1x1x128x64_2_3 : S128x64.BroadcastsInDim S1x1x128x64 (![2, 3] : Fin 2 → Fin S1x1x128x64.rank)
  bcast_S64x48x128x1_S64x48x128x64_0_1_2_3 : S64x48x128x1.BroadcastsInDim S64x48x128x64 (![0, 1, 2, 3] : Fin 4 → Fin S64x48x128x64.rank)
  bcast_S1x1x128x64_S64x48x128x64_0_1_2_3 : S1x1x128x64.BroadcastsInDim S64x48x128x64 (![0, 1, 2, 3] : Fin 4 → Fin S64x48x128x64.rank)
  bcast_S_S64x48x128x64 : S_.BroadcastsInDim S64x48x128x64 (![] : Fin 0 → Fin S64x48x128x64.rank)
  bcast_S64x1x128x1_S64x1x128x64_0_1_2_3 : S64x1x128x1.BroadcastsInDim S64x1x128x64 (![0, 1, 2, 3] : Fin 4 → Fin S64x1x128x64.rank)
  bcast_S1x1x128x64_S64x1x128x64_0_1_2_3 : S1x1x128x64.BroadcastsInDim S64x1x128x64 (![0, 1, 2, 3] : Fin 4 → Fin S64x1x128x64.rank)
  bcast_S64x1x128x64_S64x48x128x64_0_1_2_3 : S64x1x128x64.BroadcastsInDim S64x48x128x64 (![0, 1, 2, 3] : Fin 4 → Fin S64x48x128x64.rank)
  bcast_S128_S128x1_0 : S128.BroadcastsInDim S128x1 (![0] : Fin 1 → Fin S128x1.rank)
  bcast_S128x1_S1x1x128x1_2_3 : S128x1.BroadcastsInDim S1x1x128x1 (![2, 3] : Fin 2 → Fin S1x1x128x1.rank)
  bcast_S1x1x128x1_S64x48x128x128_0_1_2_3 : S1x1x128x1.BroadcastsInDim S64x48x128x128 (![0, 1, 2, 3] : Fin 4 → Fin S64x48x128x128.rank)
  bcast_S_S64x48x128x128 : S_.BroadcastsInDim S64x48x128x128 (![] : Fin 0 → Fin S64x48x128x128.rank)
  bcast_S_S128x128 : S_.BroadcastsInDim S128x128 (![] : Fin 0 → Fin S128x128.rank)
  bcast_S128x128_S1x1x128x128_2_3 : S128x128.BroadcastsInDim S1x1x128x128 (![2, 3] : Fin 2 → Fin S1x1x128x128.rank)
  bcast_S1x1x128x128_S64x48x128x128_0_1_2_3 : S1x1x128x128.BroadcastsInDim S64x48x128x128 (![0, 1, 2, 3] : Fin 4 → Fin S64x48x128x128.rank)
  reducesTo_S64x48x128x128_S64x48x128_d3 : S64x48x128x128.ReducesTo [3] S64x48x128
  bcast_S_S64x48x128x1 : S_.BroadcastsInDim S64x48x128x1 (![] : Fin 0 → Fin S64x48x128x1.rank)
  bcast_S64x48x128x1_S64x48x128x128_0_1_2_3 : S64x48x128x1.BroadcastsInDim S64x48x128x128 (![0, 1, 2, 3] : Fin 4 → Fin S64x48x128x128.rank)
  concatenates_S64x48x128x64_S64x48x128x64_S64x48x128x128_d3 : Shape.Concatenates [S64x48x128x64, S64x48x128x64] S64x48x128x128 3
  shapeCasts_S64x48x128x32_S64x48x4096 : S64x48x128x32.ShapeCasts S64x48x4096
  dot_S64x48x128x64_S64x48x128x64_S64x48x128x128_3_3_2_2_01_01_wf : DotDims.WF S64x48x128x64 S64x48x128x64 S64x48x128x128 [3] [3] [2] [2] [0, 1] [0, 1]
  dot_S64x48x128x128_S64x48x128x64_S64x48x128x64_3_2_2_3_01_01_wf : DotDims.WF S64x48x128x128 S64x48x128x64 S64x48x128x64 [3] [2] [2] [3] [0, 1] [0, 1]
  dot_S64x48x128x128_S128x32_S64x48x128x32_3_0_012_1_n_n_wf : DotDims.WF S64x48x128x128 S128x32 S64x48x128x32 [3] [0] [0, 1, 2] [1] [] []

variable [Facts₀]

def dot_S64x48x128x64_S64x48x128x64_S64x48x128x128_3_3_2_2_01_01 : DotDims S64x48x128x64 S64x48x128x64 S64x48x128x128 where
  lhsContracting := [3]
  rhsContracting := [3]
  lhsNonContracting := [2]
  rhsNonContracting := [2]
  lhsBatch := [0, 1]
  rhsBatch := [0, 1]
  wf := dot_S64x48x128x64_S64x48x128x64_S64x48x128x128_3_3_2_2_01_01_wf
def dot_S64x48x128x128_S64x48x128x64_S64x48x128x64_3_2_2_3_01_01 : DotDims S64x48x128x128 S64x48x128x64 S64x48x128x64 where
  lhsContracting := [3]
  rhsContracting := [2]
  lhsNonContracting := [2]
  rhsNonContracting := [3]
  lhsBatch := [0, 1]
  rhsBatch := [0, 1]
  wf := dot_S64x48x128x128_S64x48x128x64_S64x48x128x64_3_2_2_3_01_01_wf
def dot_S64x48x128x128_S128x32_S64x48x128x32_3_0_012_1_n_n : DotDims S64x48x128x128 S128x32 S64x48x128x32 where
  lhsContracting := [3]
  rhsContracting := [0]
  lhsNonContracting := [0, 1, 2]
  rhsNonContracting := [1]
  lhsBatch := []
  rhsBatch := []
  wf := dot_S64x48x128x128_S128x32_S64x48x128x32_3_0_012_1_n_n_wf

class Facts : Prop extends Facts₀ where

variable [Facts]
-- ==== Proof.RefIdx.lean ====
/-
  The index functions of the reference's stages, evaluated at an index written by its coordinates.
  A stage that re-lays its operand (a broadcast along new or unit axes, the operands of a contraction, the operand of a sum along
  the last axis) reads the operand at an index computed from the result's index: a coordinate of the result's index, 0 on a
  unit axis, or the summation position k. Each equation below says so for one stage, with both indices written by their
  coordinates; together they let the composed index of any entry be computed by rewriting. A table of cases: every proof is
  the same case split on the axis. Not in the table: the rank-0 indices of scalar constants, and the final reshape, whose index
  involves quotients and remainders (Proof/RefValue.lean).
  Not listed: idx_main_v1, idx_main_v6, idx_main_v14, idx_main_v23, idx_main_v25, idx_main_call0_v1, idx_main_call0_v4, idx_main_v44, idx_main_v48, idx_main_v56, idx_main_call1_v0, idx_main_v65
-/
import proofs.«157175_j68521908240971_1_alg».proof.Proof.RefReadP
import Idealize.ShloMosaic.Lib.ValueIdx

namespace Cert.ReferenceIdeal.ReadIdx

open Cert.ReferenceIdeal Cert.ReferenceIdeal.ReadP Idealize.ShloMosaic Idealize.ShloMosaic.ValueIdx

theorem idx_main_v4_ix (c0 : Fin 64) (c1 : Fin 1) (c2 : Fin 128) (c3 : Fin 1) : idx_main_v4 (ix4 c0 c1 c2 c3) = ix2 c0 c2 :=
  funext fun a => Fin.ext (by match a with | ⟨0, _⟩ => rfl | ⟨1, _⟩ => rfl)
theorem idx_main_v5_ix (c0 : Fin 64) (c1 : Fin 48) (c2 : Fin 128) (c3 : Fin 1) : idx_main_v5 (ix4 c0 c1 c2 c3) = ix3 c0 c1 c2 :=
  funext fun a => Fin.ext (by match a with | ⟨0, _⟩ => rfl | ⟨1, _⟩ => rfl | ⟨2, _⟩ => rfl)
theorem idx_main_v8_ix (c0 : Fin 64) (c1 : Fin 48) (c2 : Fin 128) (c3 : Fin 1) : idx_main_v8 (ix4 c0 c1 c2 c3) = ix4 c0 (0 : Fin 1) c2 (0 : Fin 1) :=
  funext fun a => Fin.ext (by match a with | ⟨0, _⟩ => rfl | ⟨1, _⟩ => rfl | ⟨2, _⟩ => rfl | ⟨3, _⟩ => rfl)
theorem idx_main_v10_ix (c0 : Fin 1) (c1 : Fin 1) (c2 : Fin 128) (c3 : Fin 64) : idx_main_v10 (ix4 c0 c1 c2 c3) = ix2 c2 c3 :=
  funext fun a => Fin.ext (by match a with | ⟨0, _⟩ => rfl | ⟨1, _⟩ => rfl)
theorem idx_main_v11_ix (c0 : Fin 64) (c1 : Fin 48) (c2 : Fin 128) (c3 : Fin 64) : idx_main_v11 (ix4 c0 c1 c2 c3) = ix4 c0 c1 c2 (0 : Fin 1) :=
  funext fun a => Fin.ext (by match a with | ⟨0, _⟩ => rfl | ⟨1, _⟩ => rfl | ⟨2, _⟩ => rfl | ⟨3, _⟩ => rfl)
theorem idx_main_v12_ix (c0 : Fin 64) (c1 : Fin 48) (c2 : Fin 128) (c3 : Fin 64) : idx_main_v12 (ix4 c0 c1 c2 c3) = ix4 (0 : Fin 1) (0 : Fin 1) c2 c3 :=
  funext fun a => Fin.ext (by match a with | ⟨0, _⟩ => rfl | ⟨1, _⟩ => rfl | ⟨2, _⟩ => rfl | ⟨3, _⟩ => rfl)
theorem idx_main_v16_ix (c0 : Fin 64) (c1 : Fin 48) (c2 : Fin 128) (c3 : Fin 1) : idx_main_v16 (ix4 c0 c1 c2 c3) = ix4 c0 (0 : Fin 1) c2 (0 : Fin 1) :=
  funext fun a => Fin.ext (by match a with | ⟨0, _⟩ => rfl | ⟨1, _⟩ => rfl | ⟨2, _⟩ => rfl | ⟨3, _⟩ => rfl)
theorem idx_main_v18_ix (c0 : Fin 1) (c1 : Fin 1) (c2 : Fin 128) (c3 : Fin 64) : idx_main_v18 (ix4 c0 c1 c2 c3) = ix2 c2 c3 :=
  funext fun a => Fin.ext (by match a with | ⟨0, _⟩ => rfl | ⟨1, _⟩ => rfl)
theorem idx_main_v19_ix (c0 : Fin 64) (c1 : Fin 48) (c2 : Fin 128) (c3 : Fin 64) : idx_main_v19 (ix4 c0 c1 c2 c3) = ix4 c0 c1 c2 (0 : Fin 1) :=
  funext fun a => Fin.ext (by match a with | ⟨0, _⟩ => rfl | ⟨1, _⟩ => rfl | ⟨2, _⟩ => rfl | ⟨3, _⟩ => rfl)
theorem idx_main_v20_ix (c0 : Fin 64) (c1 : Fin 48) (c2 : Fin 128) (c3 : Fin 64) : idx_main_v20 (ix4 c0 c1 c2 c3) = ix4 (0 : Fin 1) (0 : Fin 1) c2 c3 :=
  funext fun a => Fin.ext (by match a with | ⟨0, _⟩ => rfl | ⟨1, _⟩ => rfl | ⟨2, _⟩ => rfl | ⟨3, _⟩ => rfl)
theorem idx_main_v27_ix (c0 : Fin 1) (c1 : Fin 1) (c2 : Fin 128) (c3 : Fin 64) : idx_main_v27 (ix4 c0 c1 c2 c3) = ix2 c2 c3 :=
  funext fun a => Fin.ext (by match a with | ⟨0, _⟩ => rfl | ⟨1, _⟩ => rfl)
theorem idx_main_v28_ix (c0 : Fin 64) (c1 : Fin 1) (c2 : Fin 128) (c3 : Fin 64) : idx_main_v28 (ix4 c0 c1 c2 c3) = ix4 c0 (0 : Fin 1) c2 (0 : Fin 1) :=
  funext fun a => Fin.ext (by match a with | ⟨0, _⟩ => rfl | ⟨1, _⟩ => rfl | ⟨2, _⟩ => rfl | ⟨3, _⟩ => rfl)
theorem idx_main_v29_ix (c0 : Fin 64) (c1 : Fin 1) (c2 : Fin 128) (c3 : Fin 64) : idx_main_v29 (ix4 c0 c1 c2 c3) = ix4 (0 : Fin 1) (0 : Fin 1) c2 c3 :=
  funext fun a => Fin.ext (by match a with | ⟨0, _⟩ => rfl | ⟨1, _⟩ => rfl | ⟨2, _⟩ => rfl | ⟨3, _⟩ => rfl)
theorem idx_main_v31_ix (c0 : Fin 64) (c1 : Fin 48) (c2 : Fin 128) (c3 : Fin 64) : idx_main_v31 (ix4 c0 c1 c2 c3) = ix4 c0 (0 : Fin 1) c2 c3 :=
  funext fun a => Fin.ext (by match a with | ⟨0, _⟩ => rfl | ⟨1, _⟩ => rfl | ⟨2, _⟩ => rfl | ⟨3, _⟩ => rfl)
theorem idx_main_v33_ix (c0 : Fin 1) (c1 : Fin 1) (c2 : Fin 128) (c3 : Fin 64) : idx_main_v33 (ix4 c0 c1 c2 c3) = ix2 c2 c3 :=
  funext fun a => Fin.ext (by match a with | ⟨0, _⟩ => rfl | ⟨1, _⟩ => rfl)
theorem idx_main_v34_ix (c0 : Fin 64) (c1 : Fin 48) (c2 : Fin 128) (c3 : Fin 64) : idx_main_v34 (ix4 c0 c1 c2 c3) = ix4 (0 : Fin 1) (0 : Fin 1) c2 c3 :=
  funext fun a => Fin.ext (by match a with | ⟨0, _⟩ => rfl | ⟨1, _⟩ => rfl | ⟨2, _⟩ => rfl | ⟨3, _⟩ => rfl)
theorem lidx_main_v36_ix (c0 : Fin 64) (c1 : Fin 48) (c2 : Fin 128) (c3 : Fin 128) (k : Fin 64) : lidx_main_v36 (ix4 c0 c1 c2 c3) k = ix4 c0 c1 c2 k :=
  funext fun a => Fin.ext (by match a with | ⟨0, _⟩ => rfl | ⟨1, _⟩ => rfl | ⟨2, _⟩ => rfl | ⟨3, _⟩ => rfl)
theorem ridx_main_v36_ix (c0 : Fin 64) (c1 : Fin 48) (c2 : Fin 128) (c3 : Fin 128) (k : Fin 64) : ridx_main_v36 (ix4 c0 c1 c2 c3) k = ix4 c0 c1 c3 k :=
  funext fun a => Fin.ext (by match a with | ⟨0, _⟩ => rfl | ⟨1, _⟩ => rfl | ⟨2, _⟩ => rfl | ⟨3, _⟩ => rfl)
theorem idx_main_v37_ix (c0 : Fin 128) (c1 : Fin 1) : idx_main_v37 (ix2 c0 c1) = ix1 c0 :=
  funext fun a => Fin.ext (by match a with | ⟨0, _⟩ => rfl)
theorem idx_main_v38_ix (c0 : Fin 1) (c1 : Fin 1) (c2 : Fin 128) (c3 : Fin 1) : idx_main_v38 (ix4 c0 c1 c2 c3) = ix2 c2 (0 : Fin 1) :=
  funext fun a => Fin.ext (by match a with | ⟨0, _⟩ => rfl | ⟨1, _⟩ => rfl)
theorem idx_main_v39_ix (c0 : Fin 64) (c1 : Fin 48) (c2 : Fin 128) (c3 : Fin 128) : idx_main_v39 (ix4 c0 c1 c2 c3) = ix4 (0 : Fin 1) (0 : Fin 1) c2 (0 : Fin 1) :=
  funext fun a => Fin.ext (by match a with | ⟨0, _⟩ => rfl | ⟨1, _⟩ => rfl | ⟨2, _⟩ => rfl | ⟨3, _⟩ => rfl)
theorem idx_main_v51_ix (c0 : Fin 1) (c1 : Fin 1) (c2 : Fin 128) (c3 : Fin 128) : idx_main_v51 (ix4 c0 c1 c2 c3) = ix2 c2 c3 :=
  funext fun a => Fin.ext (by match a with | ⟨0, _⟩ => rfl | ⟨1, _⟩ => rfl)
theorem idx_main_v52_ix (c0 : Fin 64) (c1 : Fin 48) (c2 : Fin 128) (c3 : Fin 128) : idx_main_v52 (ix4 c0 c1 c2 c3) = ix4 (0 : Fin 1) (0 : Fin 1) c2 c3 :=
  funext fun a => Fin.ext (by match a with | ⟨0, _⟩ => rfl | ⟨1, _⟩ => rfl | ⟨2, _⟩ => rfl | ⟨3, _⟩ => rfl)
theorem idx_main_v54_ix (c0 : Fin 64) (c1 : Fin 48) (c2 : Fin 128) (k : Fin 128) : idx_main_v54 (ix3 c0 c1 c2) k = ix4 c0 c1 c2 k :=
  funext fun a => Fin.ext (by match a with | ⟨0, _⟩ => rfl | ⟨1, _⟩ => rfl | ⟨2, _⟩ => rfl | ⟨3, _⟩ => rfl)
theorem idx_main_v55_ix (c0 : Fin 64) (c1 : Fin 48) (c2 : Fin 128) (c3 : Fin 1) : idx_main_v55 (ix4 c0 c1 c2 c3) = ix3 c0 c1 c2 :=
  funext fun a => Fin.ext (by match a with | ⟨0, _⟩ => rfl | ⟨1, _⟩ => rfl | ⟨2, _⟩ => rfl)
theorem idx_main_v58_ix (c0 : Fin 64) (c1 : Fin 48) (c2 : Fin 128) (c3 : Fin 128) : idx_main_v58 (ix4 c0 c1 c2 c3) = ix4 c0 c1 c2 (0 : Fin 1) :=
  funext fun a => Fin.ext (by match a with | ⟨0, _⟩ => rfl | ⟨1, _⟩ => rfl | ⟨2, _⟩ => rfl | ⟨3, _⟩ => rfl)
theorem lidx_main_v60_ix (c0 : Fin 64) (c1 : Fin 48) (c2 : Fin 128) (c3 : Fin 64) (k : Fin 128) : lidx_main_v60 (ix4 c0 c1 c2 c3) k = ix4 c0 c1 c2 k :=
  funext fun a => Fin.ext (by match a with | ⟨0, _⟩ => rfl | ⟨1, _⟩ => rfl | ⟨2, _⟩ => rfl | ⟨3, _⟩ => rfl)
theorem ridx_main_v60_ix (c0 : Fin 64) (c1 : Fin 48) (c2 : Fin 128) (c3 : Fin 64) (k : Fin 128) : ridx_main_v60 (ix4 c0 c1 c2 c3) k = ix4 c0 c1 k c3 :=
  funext fun a => Fin.ext (by match a with | ⟨0, _⟩ => rfl | ⟨1, _⟩ => rfl | ⟨2, _⟩ => rfl | ⟨3, _⟩ => rfl)
theorem lidx_main_v64_ix (c0 : Fin 64) (c1 : Fin 48) (c2 : Fin 128) (c3 : Fin 32) (k : Fin 128) : lidx_main_v64 (ix4 c0 c1 c2 c3) k = ix4 c0 c1 c2 k :=
  funext fun a => Fin.ext (by match a with | ⟨0, _⟩ => rfl | ⟨1, _⟩ => rfl | ⟨2, _⟩ => rfl | ⟨3, _⟩ => rfl)
theorem ridx_main_v64_ix (c0 : Fin 64) (c1 : Fin 48) (c2 : Fin 128) (c3 : Fin 32) (k : Fin 128) : ridx_main_v64 (ix4 c0 c1 c2 c3) k = ix2 k c3 :=
  funext fun a => Fin.ext (by match a with | ⟨0, _⟩ => rfl | ⟨1, _⟩ => rfl)

/-- Rewrites with every equation of the table. -/
macro "ref_idx" : tactic => `(tactic| simp only [idx_main_v4_ix, idx_main_v5_ix, idx_main_v8_ix, idx_main_v10_ix, idx_main_v11_ix, idx_main_v12_ix, idx_main_v16_ix, idx_main_v18_ix, idx_main_v19_ix, idx_main_v20_ix, idx_main_v27_ix, idx_main_v28_ix, idx_main_v29_ix, idx_main_v31_ix, idx_main_v33_ix, idx_main_v34_ix, lidx_main_v36_ix, ridx_main_v36_ix, idx_main_v37_ix, idx_main_v38_ix, idx_main_v39_ix, idx_main_v51_ix, idx_main_v52_ix, idx_main_v54_ix, idx_main_v55_ix, idx_main_v58_ix, lidx_main_v60_ix, ridx_main_v60_ix, lidx_main_v64_ix, ridx_main_v64_ix])

end Cert.ReferenceIdeal.ReadIdx
-- ==== Proof.Spec.lean ====
/-
  One row of the feature-attention layer, as functions on the extended reals.

  A row is one (batch, time) position. It carries a value `xr f` and an observation flag `mr f` for each of the 128 features.
  From these and the three embedding tables the row's embedding of feature `i` is, coordinate by coordinate,

      emb i e = xr i · e0 i e + (mr i − xr i) · e1 i e + (1 − mr i) · em i e.

  Feature `i` scores feature `j` by the weighted inner product of their embeddings plus a bias,
  `rawScore i j = Σ_e (emb i e · aw i e) · emb j e + ab i`; the score is clipped to [−5, 5], exponentiated, and the diagonal
  is removed (`weight`); each row of weights is divided by its sum plus a small constant (`attn`); the embeddings are averaged
  with these weights and multiplied back by the feature's own embedding (`agg`); embedding and aggregate, side by side, are
  rectified (`act`, 128 coordinates: the first 64 the embedding, the last 64 the aggregate) and multiplied by the
  compression matrix (`out`).

  The float constants are kept as the binary words the programs print: the same word denotes the same extended real on both
  sides, so none of them is ever evaluated here.
-/
import Idealize.ShloMosaic.PureOps.Ideal
import Idealize.ShloMosaic.Lib.ValueIdx

noncomputable section

namespace Cert.FeatureAttention

open Idealize.ShloMosaic

/-- The embedding of feature `i` at coordinate `e`: the value, the flag minus the value, and one minus the flag, each
    times its table's entry. -/
def emb (xr mr : Fin 128 → EReal) (e0 e1 em : Fin 128 → Fin 64 → EReal) (i : Fin 128) (e : Fin 64) : EReal :=
  xr i * e0 i e + (mr i - xr i) * e1 i e + (Ideal.ofBits .f32 0x3F800000#32 - mr i) * em i e

/-- The score of feature `j` for feature `i` before clipping: the inner product over the 64 coordinates of `i`'s weighted
    embedding with `j`'s embedding, plus `i`'s bias. -/
def rawScore (E aw : Fin 128 → Fin 64 → EReal) (ab : Fin 128 → EReal) (i j : Fin 128) : EReal :=
  (∑ e : Fin 64, (E i e * aw i e) * E j e) + ab i

/-- One off the diagonal, zero on it. -/
def offDiag (i j : Fin 128) : EReal := if i = j then 0 else 1

/-- The exponential of the score clipped to [−5, 5], with the diagonal removed. -/
def weight (S : Fin 128 → Fin 128 → EReal) (i j : Fin 128) : EReal :=
  Ideal.exp (min (Ideal.ofBits .f32 0x40A00000#32) (max (Ideal.ofBits .f32 0xC0A00000#32) (S i j))) * offDiag i j

/-- A weight divided by its row's sum plus the small constant. -/
def attn (S : Fin 128 → Fin 128 → EReal) (i j : Fin 128) : EReal :=
  Ideal.div (weight S i j) ((∑ j' : Fin 128, weight S i j') + Ideal.ofBits .f32 0x322BCC77#32)

/-- Feature `i`'s embedding times the attention-weighted average of all embeddings, coordinate by coordinate. -/
def agg (E : Fin 128 → Fin 64 → EReal) (S : Fin 128 → Fin 128 → EReal) (i : Fin 128) (e : Fin 64) : EReal :=
  E i e * ∑ j : Fin 128, attn S i j * E j e

/-- Embedding (coordinates 0 … 63) and aggregate (coordinates 64 … 127) side by side, rectified. -/
def act (E : Fin 128 → Fin 64 → EReal) (S : Fin 128 → Fin 128 → EReal) (i k : Fin 128) : EReal :=
  max (if h : k.val < 64 then E i ⟨k.val, h⟩ else agg E S i ⟨k.val - 64, by have := k.isLt; omega⟩) 0

/-- The row's result for feature `i` at compressed coordinate `d`. -/
def out (E : Fin 128 → Fin 64 → EReal) (S : Fin 128 → Fin 128 → EReal) (cw : Fin 128 → Fin 32 → EReal)
    (i : Fin 128) (d : Fin 32) : EReal :=
  ∑ k : Fin 128, act E S i k * cw k d

/-- The whole row: the result from the row's values and flags and the parameter tables. -/
def row (xr mr : Fin 128 → EReal) (e0 e1 em aw : Fin 128 → Fin 64 → EReal) (ab : Fin 128 → EReal)
    (cw : Fin 128 → Fin 32 → EReal) (i : Fin 128) (d : Fin 32) : EReal :=
  out (emb xr mr e0 e1 em) (rawScore (emb xr mr e0 e1 em) aw ab) cw i d

end Cert.FeatureAttention

end
-- ==== Proof.RefValue.lean ====
/-
  The reference program's result as the row specification.

  The reference computes on whole arrays of shape [batch, time, feature, ·]; every stage acts on each (batch, time) position
  separately, and the observation flag of a feature is one number per (batch, feature), the same at every time. Read at position
  (b, t) its stages are the specification's functions of that position's 128 values `x0 (b, t, ·)` and of the 128 flags of batch b:
  the embedding (its stage 32), the score before clipping (stage 40), and the result before the final reshape (stage 64). Three
  spellings differ from the specification's and are equal on the extended reals: the reference multiplies the flag by the lower
  clip bound 0 and subtracts that from the value (`x − m·0 = x`), multiplies the flag by the upper clip bound 1 (`m·1 = m`), and
  divides the sum of the first two terms by the bounds' difference 1 (`z / 1 = z`); and it builds the off-diagonal mask as one minus
  the identity matrix. The final reshape lays the 128 · 32 entries of a position along one axis: entry q is feature q / 32,
  compressed coordinate q % 32.
-/
import proofs.«157175_j68521908240971_1_alg».proof.Proof.RefReadP
import proofs.«157175_j68521908240971_1_alg».proof.Proof.RefIdx
import proofs.«157175_j68521908240971_1_alg».proof.Proof.Spec
import Idealize.ShloMosaic.Lib.IdealHost
import Idealize.ShloMosaic.Lib.Pipeline.Value
import Idealize.ShloMosaic.Lib.KernelVsHost

noncomputable section

namespace Cert.ReferenceIdeal.RowValue

open Cert.ReferenceIdeal Cert.ReferenceIdeal.Facts₀ Cert.ReferenceIdeal.ReadP Cert.ReferenceIdeal.ReadIdx Cert.FeatureAttention
open Idealize.ShloMosaic Idealize.ShloMosaic.ValueIdx

variable {α : Type}

/-! ## Three identities on the extended reals -/

/-- Dividing by one changes nothing, at the infinities too. -/
theorem div_one (z : EReal) : Ideal.div z 1 = z := by
  unfold Ideal.div
  rw [if_neg one_ne_zero]
  simp

/-- One minus one is zero. -/
theorem one_sub_one : (1 : EReal) - 1 = 0 := by
  rw [← EReal.coe_one, ← EReal.coe_sub]; simp

/-! ## The embedding -/

/-- Stage 32 at (b, t, i, e) is the embedding of feature i, coordinate e, of position (b, t). -/
theorem embedding_eq (x0 : (⟨S64x48x128, .f32⟩ : BufTy).Contents (Elt Ideal)) (x1 : (⟨S64x48x128, .i32⟩ : BufTy).Contents (Elt Ideal)) (x2 x3 x4 : (⟨S128x64, .f32⟩ : BufTy).Contents (Elt Ideal)) (b : Fin 64) (t : Fin 48) (i : Fin 128) (e : Fin 64) :
    val_main_v32 (F := Ideal) x0 x1 x2 x3 x4 (ix4 b t i e) = (emb (fun f => x0 (ix3 b t f)) (fun f => val_main_v3 (F := Ideal) x1 (ix2 b f)) (fun f c => x2 (ix2 f c)) (fun f c => x3 (ix2 f c)) (fun f c => x4 (ix2 f c))) i e := by
  simp only [val_main_v32_apply, val_main_v24_apply, val_main_v22_apply, val_main_v13_apply, val_main_v11_apply, val_main_v9_apply,
    val_main_v5_apply, val_main_v8_apply, val_main_v7_apply, val_main_v4_apply, val_main_v6_apply, val_main_cst_apply,
    val_main_v12_apply, val_main_v10_apply, val_main_v21_apply, val_main_v19_apply, val_main_v17_apply, val_main_v16_apply,
    val_main_v15_apply, val_main_v14_apply, val_main_cst_1_apply, val_main_v20_apply, val_main_v18_apply, val_main_v23_apply,
    val_main_cst_2_apply, val_main_v31_apply, val_main_v30_apply, val_main_v28_apply, val_main_v26_apply, val_main_v25_apply,
    val_main_cst_3_apply, val_main_v29_apply, val_main_v27_apply]
  ref_idx
  simp only [Ideal.hostDivf_def, Ideal.mulf_def, Ideal.addf_def, Ideal.subf_def, Ideal.ofBits_def, Ideal.ofBits_zero_f32,
    Ideal.ofBits_one_f32, mul_zero, sub_zero, mul_one, div_one, emb]

/-! ## The score before clipping -/

/-- Stage 40 at (b, t, i, j) is the score of feature j for feature i at position (b, t), before clipping. -/
theorem rawScore_eq (x0 : (⟨S64x48x128, .f32⟩ : BufTy).Contents (Elt Ideal)) (x1 : (⟨S64x48x128, .i32⟩ : BufTy).Contents (Elt Ideal)) (x2 x3 x4 x5 : (⟨S128x64, .f32⟩ : BufTy).Contents (Elt Ideal)) (x6 : (⟨S128, .f32⟩ : BufTy).Contents (Elt Ideal)) (b : Fin 64) (t : Fin 48) (i j : Fin 128) :
    val_main_v40 (F := Ideal) x0 x1 x2 x3 x4 x5 x6 (ix4 b t i j) = (rawScore (emb (fun f => x0 (ix3 b t f)) (fun f => val_main_v3 (F := Ideal) x1 (ix2 b f)) (fun f c => x2 (ix2 f c)) (fun f c => x3 (ix2 f c)) (fun f c => x4 (ix2 f c))) (fun f c => x5 (ix2 f c)) (fun f => x6 (ix1 f))) i j := by
  simp only [val_main_v40_apply, val_main_v36_apply, val_main_v35_apply, val_main_v34_apply, val_main_v33_apply,
    val_main_v39_apply, val_main_v38_apply, val_main_v37_apply]
  ref_idx
  simp only [embedding_eq, Ideal.addf_def, Ideal.mulf_def, rawScore]

/-! ## The mask -/

/-- One minus the identity matrix is one off the diagonal and zero on it. -/
theorem mask_eq (i j : Fin 128) : val_main_v49 (F := Ideal) (ix2 i j) = offDiag i j := by
  simp only [val_main_v49_apply, val_main_v48_apply, val_main_cst_7_apply, val_main_v47_apply, val_main_v46_apply,
    val_main_v45_apply, val_main_v42_apply, val_main_v43_apply, val_main_v44_apply, val_main_c_6_apply]
  show Ideal.ofBits .f32 0x3F800000#32
      - (((IntOp.cmpi .eq (IntOp.addi (BitVec.ofNat 32 i.val) 0#32) (BitVec.ofNat 32 j.val)).toNat : ℝ) : EReal) = _
  have hz : IntOp.addi (BitVec.ofNat 32 i.val) 0#32 = BitVec.ofNat 32 i.val := by simp [IntOp.addi]
  rw [hz, Ideal.ofBits_one_f32]
  unfold offDiag IntOp.cmpi
  by_cases hij : i = j
  · subst hij
    simp [one_sub_one]
  · have hne : BitVec.ofNat 32 i.val ≠ BitVec.ofNat 32 j.val := by
      intro h
      have ht := congrArg BitVec.toNat h
      rw [BitVec.toNat_ofNat, BitVec.toNat_ofNat] at ht
      have hi := i.isLt; have hj := j.isLt
      exact hij (Fin.ext (by omega))
    have hb : (BitVec.ofNat 32 i.val == BitVec.ofNat 32 j.val) = false := beq_eq_false_iff_ne.mpr hne
    simp [hij, hb]

/-! ## Embedding and aggregate side by side -/

/-- Two [64, 48, 128, 64] arrays joined along the last axis: coordinates below 64 read the first, the others the second. -/
theorem join_apply (p q : (⟨4, ![64, 48, 128, 64]⟩ : Shape).Idx → α)
    (h : Shape.Concatenates [(⟨4, ![64, 48, 128, 64]⟩ : Shape), ⟨4, ![64, 48, 128, 64]⟩] ⟨4, ![64, 48, 128, 128]⟩ 3)
    (b : Fin 64) (t : Fin 48) (i k : Fin 128) :
    concatenate ⟨4, ![64, 48, 128, 128]⟩ 3 [⟨⟨4, ![64, 48, 128, 64]⟩, p⟩, ⟨⟨4, ![64, 48, 128, 64]⟩, q⟩] h (ix4 b t i k)
      = if hk : k.val < 64 then p (ix4 b t i ⟨k.val, hk⟩) else q (ix4 b t i ⟨k.val - 64, by have := k.isLt; omega⟩) := by
  by_cases hk : k.val < 64
  · rw [dif_pos hk]
    exact concatenate_pair_apply_left 3 p q h (ix4 b t i k) rfl (ix4 b t i ⟨k.val, hk⟩)
      (fun c => by match c with | ⟨0, _⟩ => rfl | ⟨1, _⟩ => rfl | ⟨2, _⟩ => rfl | ⟨3, _⟩ => rfl)
  · rw [dif_neg hk]
    exact concatenate_pair_apply_right 3 p q h (ix4 b t i k) rfl rfl (ix4 b t i ⟨k.val - 64, by have := k.isLt; omega⟩)
      (fun c hc => by match c with | ⟨0, _⟩ => rfl | ⟨1, _⟩ => rfl | ⟨2, _⟩ => rfl | ⟨3, _⟩ => exact absurd rfl hc)
      (by show (k.val - 64) + 64 = k.val; omega)

/-- Stage 62 at (b, t, i, k): the embedding for k below 64, the aggregate (stage 61) above. -/
theorem joined_apply (x0 : (⟨S64x48x128, .f32⟩ : BufTy).Contents (Elt Ideal)) (x1 : (⟨S64x48x128, .i32⟩ : BufTy).Contents (Elt Ideal)) (x2 x3 x4 x5 : (⟨S128x64, .f32⟩ : BufTy).Contents (Elt Ideal)) (x6 : (⟨S128, .f32⟩ : BufTy).Contents (Elt Ideal)) (b : Fin 64) (t : Fin 48) (i k : Fin 128) :
    val_main_v62 (F := Ideal) x0 x1 x2 x3 x4 x5 x6 (ix4 b t i k)
      = if hk : k.val < 64 then val_main_v32 (F := Ideal) x0 x1 x2 x3 x4 (ix4 b t i ⟨k.val, hk⟩)
        else val_main_v61 (F := Ideal) x0 x1 x2 x3 x4 x5 x6 (ix4 b t i ⟨k.val - 64, by have := k.isLt; omega⟩) := by
  unfold val_main_v62
  exact join_apply _ _ _ b t i k

/-! ## The result before the reshape -/

/-- Stage 64 at (b, t, i, d) is the specification's result for feature i, compressed coordinate d, of position (b, t). -/
theorem result_eq (x0 : (⟨S64x48x128, .f32⟩ : BufTy).Contents (Elt Ideal)) (x1 : (⟨S64x48x128, .i32⟩ : BufTy).Contents (Elt Ideal)) (x2 x3 x4 x5 : (⟨S128x64, .f32⟩ : BufTy).Contents (Elt Ideal)) (x6 : (⟨S128, .f32⟩ : BufTy).Contents (Elt Ideal)) (x7 : (⟨S128x32, .f32⟩ : BufTy).Contents (Elt Ideal)) (b : Fin 64) (t : Fin 48) (i : Fin 128) (d : Fin 32) :
    val_main_v64 (F := Ideal) x0 x1 x2 x3 x4 x5 x6 x7 (ix4 b t i d)
      = out (emb (fun f => x0 (ix3 b t f)) (fun f => val_main_v3 (F := Ideal) x1 (ix2 b f)) (fun f c => x2 (ix2 f c)) (fun f c => x3 (ix2 f c)) (fun f c => x4 (ix2 f c))) (rawScore (emb (fun f => x0 (ix3 b t f)) (fun f => val_main_v3 (F := Ideal) x1 (ix2 b f)) (fun f c => x2 (ix2 f c)) (fun f c => x3 (ix2 f c)) (fun f c => x4 (ix2 f c))) (fun f c => x5 (ix2 f c)) (fun f => x6 (ix1 f))) (fun k c => x7 (ix2 k c)) i d := by
  simp only [val_main_v64_apply, val_main_v63_apply, val_main_call1_v0_apply, val_main_call1_cst_apply]
  ref_idx
  simp only [joined_apply, val_main_v61_apply, val_main_v60_apply]
  ref_idx
  simp only [val_main_v59_apply, val_main_v58_apply, val_main_v57_apply, val_main_v55_apply, val_main_v54_apply, val_main_cst_8_apply,
    val_main_v56_apply, val_main_cst_9_apply]
  ref_idx
  simp only [val_main_v53_apply, val_main_v50_apply, val_main_v41_apply, val_main_call0_v4_apply, val_main_call0_v3_apply,
    val_main_cst_5_apply, val_main_call0_v2_apply, val_main_call0_v1_apply, val_main_call0_v0_apply, val_main_cst_4_apply,
    val_main_v52_apply, val_main_v51_apply]
  ref_idx
  simp only [mask_eq, rawScore_eq, embedding_eq, Ideal.hostDivf_def, Ideal.mulf_def, Ideal.addf_def, Ideal.maximumf_def,
    Ideal.minimumf_def, Ideal.hostUnary_exp_def, Ideal.ofBits_def, Ideal.ofBits_zero_f32, zero_add,
    out, act, agg, attn, weight]

/-! ## The reshape -/

/-- The final reshape reads entry q of position (b, t) at feature q / 32, compressed coordinate q % 32. -/
theorem reshape_idx (b : Fin 64) (t : Fin 48) (q : Fin 4096) :
    idx_main_v65 (ix3 b t q)
      = ix4 b t (⟨q.val / 32, by have := q.isLt; omega⟩ : Fin 128) (⟨q.val % 32, by omega⟩ : Fin 32) := by
  have hb := b.isLt; have ht := t.isLt; have hq := q.isLt
  refine funext fun a => Fin.ext ?_
  match a with
  | ⟨0, _⟩ => show ((b.val * 48 + t.val) * 4096 + q.val) / 196608 = b.val; omega
  | ⟨1, _⟩ => show ((b.val * 48 + t.val) * 4096 + q.val) / 4096 % 48 = t.val; omega
  | ⟨2, _⟩ => show ((b.val * 48 + t.val) * 4096 + q.val) / 32 % 128 = q.val / 32; omega
  | ⟨3, _⟩ => show ((b.val * 48 + t.val) * 4096 + q.val) % 32 = q.val % 32; omega

/-- The reference's result at (b, t, q): the row specification of position (b, t), at feature q / 32 and compressed coordinate q % 32. -/
theorem reference_eq (x0 : (⟨S64x48x128, .f32⟩ : BufTy).Contents (Elt Ideal)) (x1 : (⟨S64x48x128, .i32⟩ : BufTy).Contents (Elt Ideal)) (x2 x3 x4 x5 : (⟨S128x64, .f32⟩ : BufTy).Contents (Elt Ideal)) (x6 : (⟨S128, .f32⟩ : BufTy).Contents (Elt Ideal)) (x7 : (⟨S128x32, .f32⟩ : BufTy).Contents (Elt Ideal)) (b : Fin 64) (t : Fin 48) (q : Fin 4096) :
    val_main_v65 (F := Ideal) x0 x1 x2 x3 x4 x5 x6 x7 (ix3 b t q)
      = row (fun f => x0 (ix3 b t f)) (fun f => val_main_v3 (F := Ideal) x1 (ix2 b f)) (fun f c => x2 (ix2 f c)) (fun f c => x3 (ix2 f c))
          (fun f c => x4 (ix2 f c)) (fun f c => x5 (ix2 f c)) (fun f => x6 (ix1 f)) (fun k c => x7 (ix2 k c))
          (⟨q.val / 32, by have := q.isLt; omega⟩ : Fin 128) (⟨q.val % 32, by omega⟩ : Fin 32) := by
  rw [val_main_v65_apply, reshape_idx, result_eq]
  rfl

end Cert.ReferenceIdeal.RowValue

end
-- ==== Proof.KernelOps.lean ====
/-
  The operations of the kernel's body that are not pointwise, each read at an index given by its coordinates.

  A block of the kernel holds 32 rows; a row has 128 features. The body lays a per-row, per-feature scalar along a new last
  axis and a parameter table along a new first axis (unit axes added by a shape cast and then broadcast), multiplies stacks of
  matrices (three products: feature against feature over the 64 embedding coordinates, weights against embeddings over the 128
  features, and the rectified 128 coordinates against the compression matrix), sums over the last axis, removes the diagonal
  with a mask built from two iotas, joins two halves along the last axis, and flattens (row, feature) to one axis of 4096 and
  back. Each lemma below says which entry of the operand an entry of the result is: the products and the sum as plain finite
  sums, everything else as one entry of one operand.
-/
import proofs.«157175_j68521908240971_1_alg».proof.Proof.Gen.KernelIdeal
import proofs.«157175_j68521908240971_1_alg».proof.Proof.Spec
import Idealize.ShloMosaic.Lib.Pipeline.Value
import Idealize.ShloMosaic.Lib.ValueIdx
import Idealize.ShloMosaic.PureOps.Ideal.Laws
import Idealize.ShloMosaic.Lib.KernelVsHost

noncomputable section

namespace Cert.KernelIdeal.BlockOps

open Cert.KernelIdeal Cert.KernelIdeal.Facts₀ Idealize.ShloMosaic Idealize.ShloMosaic.ValueIdx

variable {α : Type}

/-! ## Unit axes: broadcasts -/

/-- A per-(row, feature) column broadcast along a new last axis reads the column. -/
theorem bcastLast {n : Nat} (w : (⟨3, ![32, 128, 1]⟩ : Shape).Idx → α)
    (h : (⟨3, ![32, 128, 1]⟩ : Shape).Broadcasts ⟨3, ![32, 128, n]⟩) (r : Fin 32) (i : Fin 128) (e : Fin n) :
    broadcastTo ⟨3, ![32, 128, n]⟩ w h (ix3 r i e) = w (ix3 r i (0 : Fin 1)) := by
  refine broadcastTo_apply w h (ix3 r i e) (ix3 r i (0 : Fin 1)) ?_
  intro a
  match a with
  | ⟨0, _⟩ => rfl
  | ⟨1, _⟩ => rfl
  | ⟨2, _⟩ => rfl

/-- A table broadcast over the 32 rows of a block reads the table. -/
theorem bcastRows {n : Nat} (u : (⟨3, ![1, 128, n]⟩ : Shape).Idx → α)
    (h : (⟨3, ![1, 128, n]⟩ : Shape).Broadcasts ⟨3, ![32, 128, n]⟩) (r : Fin 32) (i : Fin 128) (e : Fin n) :
    broadcastTo ⟨3, ![32, 128, n]⟩ u h (ix3 r i e) = u (ix3 (0 : Fin 1) i e) := by
  refine broadcastTo_apply u h (ix3 r i e) (ix3 (0 : Fin 1) i e) ?_
  intro a
  match a with
  | ⟨0, _⟩ => rfl
  | ⟨1, _⟩ => rfl
  | ⟨2, _⟩ =>
    show e.val = if n = 1 then 0 else e.val
    split
    · have := e.isLt; omega
    · rfl

/-- The bias column, one entry per feature, broadcast over rows and over the scored features reads the feature's entry. -/
theorem bcastBias (w : (⟨3, ![1, 128, 1]⟩ : Shape).Idx → α)
    (h : (⟨3, ![1, 128, 1]⟩ : Shape).Broadcasts ⟨3, ![32, 128, 128]⟩) (r : Fin 32) (i j : Fin 128) :
    broadcastTo ⟨3, ![32, 128, 128]⟩ w h (ix3 r i j) = w (ix3 (0 : Fin 1) i (0 : Fin 1)) := by
  refine broadcastTo_apply w h (ix3 r i j) (ix3 (0 : Fin 1) i (0 : Fin 1)) ?_
  intro a
  match a with
  | ⟨0, _⟩ => rfl
  | ⟨1, _⟩ => rfl
  | ⟨2, _⟩ => rfl

/-! ## Unit axes: shape casts -/

/-- A [32, 128] block viewed [32, 128, 1]. -/
theorem castLast (v : (⟨2, ![32, 128]⟩ : Shape).Idx → α) (h : (⟨2, ![32, 128]⟩ : Shape).ShapeCasts ⟨3, ![32, 128, 1]⟩)
    (r : Fin 32) (i : Fin 128) : shapeCast ⟨3, ![32, 128, 1]⟩ v h (ix3 r i (0 : Fin 1)) = v (ix2 r i) := by
  refine shapeCast_apply v h (ix3 r i (0 : Fin 1)) (ix2 r i) ?_
  rw [Shape.rowMajor_val_two, Shape.rowMajor_val_three]
  show r.val * 128 + i.val = (r.val * 128 + i.val) * 1 + 0
  omega

/-- A [128, n] table viewed [1, 128, n]. -/
theorem castLead {n : Nat} (t : (⟨2, ![128, n]⟩ : Shape).Idx → α) (h : (⟨2, ![128, n]⟩ : Shape).ShapeCasts ⟨3, ![1, 128, n]⟩)
    (i : Fin 128) (e : Fin n) : shapeCast ⟨3, ![1, 128, n]⟩ t h (ix3 (0 : Fin 1) i e) = t (ix2 i e) := by
  refine shapeCast_apply t h (ix3 (0 : Fin 1) i e) (ix2 i e) ?_
  rw [Shape.rowMajor_val_two, Shape.rowMajor_val_three]
  show i.val * n + e.val = (0 * 128 + i.val) * n + e.val
  rw [Nat.zero_mul, Nat.zero_add]

/-! ## Rows and features on one axis -/

/-- The position of (row r, feature i) on the flattened axis of 32 · 128 entries. -/
def flat (r : Fin 32) (i : Fin 128) : Fin 4096 := ⟨r.val * 128 + i.val, by have := r.isLt; have := i.isLt; omega⟩

/-- [32, 128, 128] flattened to [4096, 128]: entry (r·128 + i, k) is entry (r, i, k). -/
theorem castFlat (v : (⟨3, ![32, 128, 128]⟩ : Shape).Idx → α) (h : (⟨3, ![32, 128, 128]⟩ : Shape).ShapeCasts ⟨2, ![4096, 128]⟩)
    (r : Fin 32) (i k : Fin 128) : shapeCast ⟨2, ![4096, 128]⟩ v h (ix2 (flat r i) k) = v (ix3 r i k) := by
  refine shapeCast_apply v h (ix2 (flat r i) k) (ix3 r i k) ?_
  rw [Shape.rowMajor_val_two, Shape.rowMajor_val_three]
  rfl

/-- [4096, 32] unflattened to [32, 128, 32]: entry (r, i, d) is entry (r·128 + i, d). -/
theorem castUnflat (v : (⟨2, ![4096, 32]⟩ : Shape).Idx → α) (h : (⟨2, ![4096, 32]⟩ : Shape).ShapeCasts ⟨3, ![32, 128, 32]⟩)
    (r : Fin 32) (i : Fin 128) (d : Fin 32) : shapeCast ⟨3, ![32, 128, 32]⟩ v h (ix3 r i d) = v (ix2 (flat r i) d) := by
  refine shapeCast_apply v h (ix3 r i d) (ix2 (flat r i) d) ?_
  rw [Shape.rowMajor_val_two, Shape.rowMajor_val_three]
  rfl

/-! ## The three products, as sums -/

theorem score_lhs0 (j : S32x128x128.Idx) (q : dot_S32x128x64_S32x128x64_S32x128x128_2_2_1_1_0_0.contr.Idx) :
    (dot_S32x128x64_S32x128x64_S32x128x128_2_2_1_1_0_0.lhsIdx j q 0).val = (j 0).val := by
  unfold DotDims.lhsIdx
  rw [dif_pos (show (0 : Fin S32x128x64.rank) ∈ dot_S32x128x64_S32x128x64_S32x128x128_2_2_1_1_0_0.lhsBatch by decide)]
  rfl
theorem score_lhs1 (j : S32x128x128.Idx) (q : dot_S32x128x64_S32x128x64_S32x128x128_2_2_1_1_0_0.contr.Idx) :
    (dot_S32x128x64_S32x128x64_S32x128x128_2_2_1_1_0_0.lhsIdx j q 1).val = (j 1).val := by
  unfold DotDims.lhsIdx
  rw [dif_neg (show ¬(1 : Fin S32x128x64.rank) ∈ dot_S32x128x64_S32x128x64_S32x128x128_2_2_1_1_0_0.lhsBatch by decide), dif_pos (show (1 : Fin S32x128x64.rank) ∈ dot_S32x128x64_S32x128x64_S32x128x128_2_2_1_1_0_0.lhsNonContracting by decide)]
  rfl
theorem score_lhs2 (j : S32x128x128.Idx) (q : dot_S32x128x64_S32x128x64_S32x128x128_2_2_1_1_0_0.contr.Idx) :
    (dot_S32x128x64_S32x128x64_S32x128x128_2_2_1_1_0_0.lhsIdx j q 2).val = (q ⟨0, by decide⟩).val :=
  dot_S32x128x64_S32x128x64_S32x128x128_2_2_1_1_0_0.lhsIdx_val_of_single rfl j q
theorem score_rhs0 (j : S32x128x128.Idx) (q : dot_S32x128x64_S32x128x64_S32x128x128_2_2_1_1_0_0.contr.Idx) :
    (dot_S32x128x64_S32x128x64_S32x128x128_2_2_1_1_0_0.rhsIdx j q 0).val = (j 0).val := by
  unfold DotDims.rhsIdx
  rw [dif_pos (show (0 : Fin S32x128x64.rank) ∈ dot_S32x128x64_S32x128x64_S32x128x128_2_2_1_1_0_0.rhsBatch by decide)]
  rfl
theorem score_rhs1 (j : S32x128x128.Idx) (q : dot_S32x128x64_S32x128x64_S32x128x128_2_2_1_1_0_0.contr.Idx) :
    (dot_S32x128x64_S32x128x64_S32x128x128_2_2_1_1_0_0.rhsIdx j q 1).val = (j 2).val := by
  unfold DotDims.rhsIdx
  rw [dif_neg (show ¬(1 : Fin S32x128x64.rank) ∈ dot_S32x128x64_S32x128x64_S32x128x128_2_2_1_1_0_0.rhsBatch by decide), dif_pos (show (1 : Fin S32x128x64.rank) ∈ dot_S32x128x64_S32x128x64_S32x128x128_2_2_1_1_0_0.rhsNonContracting by decide)]
  rfl
theorem score_rhs2 (j : S32x128x128.Idx) (q : dot_S32x128x64_S32x128x64_S32x128x128_2_2_1_1_0_0.contr.Idx) :
    (dot_S32x128x64_S32x128x64_S32x128x128_2_2_1_1_0_0.rhsIdx j q 2).val = (q ⟨0, by decide⟩).val :=
  dot_S32x128x64_S32x128x64_S32x128x128_2_2_1_1_0_0.rhsIdx_val_of_single rfl j q

/-- Feature i against feature j of row r: the sum over the 64 embedding coordinates. -/
theorem scoreProduct_apply (a : FVec Ideal S32x128x64 .bf16) (b : FVec Ideal S32x128x64 .bf16) (r : Fin 32) (i j : Fin 128) :
    matmul dot_S32x128x64_S32x128x64_S32x128x128_2_2_1_1_0_0 none a b (constant (F := Ideal) S32x128x128 .f32 0x00000000#32) (ix3 r i j)
      = ∑ k : Fin 64, a (ix3 r i k) * b (ix3 r j k) := by
  refine (Ideal.matmul_constant_zero_apply dot_S32x128x64_S32x128x64_S32x128x128_2_2_1_1_0_0 none a b (ix3 r i j)).trans ?_
  rw [← Equiv.sum_comp (contrEquiv1 dot_S32x128x64_S32x128x64_S32x128x128_2_2_1_1_0_0 64 rfl rfl).symm]
  refine Finset.sum_congr rfl fun k _ => ?_
  have hk := contrEquiv1_symm_val dot_S32x128x64_S32x128x64_S32x128x128_2_2_1_1_0_0 64 rfl rfl k
  have el : dot_S32x128x64_S32x128x64_S32x128x128_2_2_1_1_0_0.lhsIdx (ix3 r i j) ((contrEquiv1 dot_S32x128x64_S32x128x64_S32x128x128_2_2_1_1_0_0 64 rfl rfl).symm k) = ix3 r i k := funext fun c => Fin.ext (by
    match c with
    | ⟨0, _⟩ => exact score_lhs0 _ _
    | ⟨1, _⟩ => exact score_lhs1 _ _
    | ⟨2, _⟩ => exact (score_lhs2 _ _).trans hk)
  have er : dot_S32x128x64_S32x128x64_S32x128x128_2_2_1_1_0_0.rhsIdx (ix3 r i j) ((contrEquiv1 dot_S32x128x64_S32x128x64_S32x128x128_2_2_1_1_0_0 64 rfl rfl).symm k) = ix3 r j k := funext fun c => Fin.ext (by
    match c with
    | ⟨0, _⟩ => exact score_rhs0 _ _
    | ⟨1, _⟩ => exact score_rhs1 _ _
    | ⟨2, _⟩ => exact (score_rhs2 _ _).trans hk)
  rw [el, er]

theorem average_lhs0 (j : S32x128x64.Idx) (q : dot_S32x128x128_S32x128x64_S32x128x64_2_1_1_2_0_0.contr.Idx) :
    (dot_S32x128x128_S32x128x64_S32x128x64_2_1_1_2_0_0.lhsIdx j q 0).val = (j 0).val := by
  unfold DotDims.lhsIdx
  rw [dif_pos (show (0 : Fin S32x128x128.rank) ∈ dot_S32x128x128_S32x128x64_S32x128x64_2_1_1_2_0_0.lhsBatch by decide)]
  rfl
theorem average_lhs1 (j : S32x128x64.Idx) (q : dot_S32x128x128_S32x128x64_S32x128x64_2_1_1_2_0_0.contr.Idx) :
    (dot_S32x128x128_S32x128x64_S32x128x64_2_1_1_2_0_0.lhsIdx j q 1).val = (j 1).val := by
  unfold DotDims.lhsIdx
  rw [dif_neg (show ¬(1 : Fin S32x128x128.rank) ∈ dot_S32x128x128_S32x128x64_S32x128x64_2_1_1_2_0_0.lhsBatch by decide), dif_pos (show (1 : Fin S32x128x128.rank) ∈ dot_S32x128x128_S32x128x64_S32x128x64_2_1_1_2_0_0.lhsNonContracting by decide)]
  rfl
theorem average_lhs2 (j : S32x128x64.Idx) (q : dot_S32x128x128_S32x128x64_S32x128x64_2_1_1_2_0_0.contr.Idx) :
    (dot_S32x128x128_S32x128x64_S32x128x64_2_1_1_2_0_0.lhsIdx j q 2).val = (q ⟨0, by decide⟩).val :=
  dot_S32x128x128_S32x128x64_S32x128x64_2_1_1_2_0_0.lhsIdx_val_of_single rfl j q
theorem average_rhs0 (j : S32x128x64.Idx) (q : dot_S32x128x128_S32x128x64_S32x128x64_2_1_1_2_0_0.contr.Idx) :
    (dot_S32x128x128_S32x128x64_S32x128x64_2_1_1_2_0_0.rhsIdx j q 0).val = (j 0).val := by
  unfold DotDims.rhsIdx
  rw [dif_pos (show (0 : Fin S32x128x64.rank) ∈ dot_S32x128x128_S32x128x64_S32x128x64_2_1_1_2_0_0.rhsBatch by decide)]
  rfl
theorem average_rhs1 (j : S32x128x64.Idx) (q : dot_S32x128x128_S32x128x64_S32x128x64_2_1_1_2_0_0.contr.Idx) :
    (dot_S32x128x128_S32x128x64_S32x128x64_2_1_1_2_0_0.rhsIdx j q 1).val = (q ⟨0, by decide⟩).val :=
  dot_S32x128x128_S32x128x64_S32x128x64_2_1_1_2_0_0.rhsIdx_val_of_single rfl j q
theorem average_rhs2 (j : S32x128x64.Idx) (q : dot_S32x128x128_S32x128x64_S32x128x64_2_1_1_2_0_0.contr.Idx) :
    (dot_S32x128x128_S32x128x64_S32x128x64_2_1_1_2_0_0.rhsIdx j q 2).val = (j 2).val := by
  unfold DotDims.rhsIdx
  rw [dif_neg (show ¬(2 : Fin S32x128x64.rank) ∈ dot_S32x128x128_S32x128x64_S32x128x64_2_1_1_2_0_0.rhsBatch by decide), dif_pos (show (2 : Fin S32x128x64.rank) ∈ dot_S32x128x128_S32x128x64_S32x128x64_2_1_1_2_0_0.rhsNonContracting by decide)]
  rfl

/-- The weights of feature i against the embeddings, coordinate e, of row r: the sum over the 128 features. -/
theorem averageProduct_apply (a : FVec Ideal S32x128x128 .bf16) (b : FVec Ideal S32x128x64 .bf16) (r : Fin 32) (i : Fin 128) (e : Fin 64) :
    matmul dot_S32x128x128_S32x128x64_S32x128x64_2_1_1_2_0_0 none a b (constant (F := Ideal) S32x128x64 .f32 0x00000000#32) (ix3 r i e)
      = ∑ k : Fin 128, a (ix3 r i k) * b (ix3 r k e) := by
  refine (Ideal.matmul_constant_zero_apply dot_S32x128x128_S32x128x64_S32x128x64_2_1_1_2_0_0 none a b (ix3 r i e)).trans ?_
  rw [← Equiv.sum_comp (contrEquiv1 dot_S32x128x128_S32x128x64_S32x128x64_2_1_1_2_0_0 128 rfl rfl).symm]
  refine Finset.sum_congr rfl fun k _ => ?_
  have hk := contrEquiv1_symm_val dot_S32x128x128_S32x128x64_S32x128x64_2_1_1_2_0_0 128 rfl rfl k
  have el : dot_S32x128x128_S32x128x64_S32x128x64_2_1_1_2_0_0.lhsIdx (ix3 r i e) ((contrEquiv1 dot_S32x128x128_S32x128x64_S32x128x64_2_1_1_2_0_0 128 rfl rfl).symm k) = ix3 r i k := funext fun c => Fin.ext (by
    match c with
    | ⟨0, _⟩ => exact average_lhs0 _ _
    | ⟨1, _⟩ => exact average_lhs1 _ _
    | ⟨2, _⟩ => exact (average_lhs2 _ _).trans hk)
  have er : dot_S32x128x128_S32x128x64_S32x128x64_2_1_1_2_0_0.rhsIdx (ix3 r i e) ((contrEquiv1 dot_S32x128x128_S32x128x64_S32x128x64_2_1_1_2_0_0 128 rfl rfl).symm k) = ix3 r k e := funext fun c => Fin.ext (by
    match c with
    | ⟨0, _⟩ => exact average_rhs0 _ _
    | ⟨1, _⟩ => exact (average_rhs1 _ _).trans hk
    | ⟨2, _⟩ => exact average_rhs2 _ _)
  rw [el, er]

theorem compress_lhs0 (j : S4096x32.Idx) (q : dot_S4096x128_S128x32_S4096x32_1_0_0_1_n_n.contr.Idx) :
    (dot_S4096x128_S128x32_S4096x32_1_0_0_1_n_n.lhsIdx j q 0).val = (j 0).val := by
  unfold DotDims.lhsIdx
  rw [dif_neg (show ¬(0 : Fin S4096x128.rank) ∈ dot_S4096x128_S128x32_S4096x32_1_0_0_1_n_n.lhsBatch by decide), dif_pos (show (0 : Fin S4096x128.rank) ∈ dot_S4096x128_S128x32_S4096x32_1_0_0_1_n_n.lhsNonContracting by decide)]
  rfl
theorem compress_lhs1 (j : S4096x32.Idx) (q : dot_S4096x128_S128x32_S4096x32_1_0_0_1_n_n.contr.Idx) :
    (dot_S4096x128_S128x32_S4096x32_1_0_0_1_n_n.lhsIdx j q 1).val = (q ⟨0, by decide⟩).val :=
  dot_S4096x128_S128x32_S4096x32_1_0_0_1_n_n.lhsIdx_val_of_single rfl j q
theorem compress_rhs0 (j : S4096x32.Idx) (q : dot_S4096x128_S128x32_S4096x32_1_0_0_1_n_n.contr.Idx) :
    (dot_S4096x128_S128x32_S4096x32_1_0_0_1_n_n.rhsIdx j q 0).val = (q ⟨0, by decide⟩).val :=
  dot_S4096x128_S128x32_S4096x32_1_0_0_1_n_n.rhsIdx_val_of_single rfl j q
theorem compress_rhs1 (j : S4096x32.Idx) (q : dot_S4096x128_S128x32_S4096x32_1_0_0_1_n_n.contr.Idx) :
    (dot_S4096x128_S128x32_S4096x32_1_0_0_1_n_n.rhsIdx j q 1).val = (j 1).val := by
  unfold DotDims.rhsIdx
  rw [dif_neg (show ¬(1 : Fin S128x32.rank) ∈ dot_S4096x128_S128x32_S4096x32_1_0_0_1_n_n.rhsBatch by decide), dif_pos (show (1 : Fin S128x32.rank) ∈ dot_S4096x128_S128x32_S4096x32_1_0_0_1_n_n.rhsNonContracting by decide)]
  rfl

/-- Flattened position p against compressed coordinate d: the sum over the 128 joined coordinates. -/
theorem compressProduct_apply (a : FVec Ideal S4096x128 .bf16) (b : FVec Ideal S128x32 .bf16) (p : Fin 4096) (d : Fin 32) :
    matmul dot_S4096x128_S128x32_S4096x32_1_0_0_1_n_n none a b (constant (F := Ideal) S4096x32 .f32 0x00000000#32) (ix2 p d)
      = ∑ k : Fin 128, a (ix2 p k) * b (ix2 k d) := by
  refine (Ideal.matmul_constant_zero_apply dot_S4096x128_S128x32_S4096x32_1_0_0_1_n_n none a b (ix2 p d)).trans ?_
  rw [← Equiv.sum_comp (contrEquiv1 dot_S4096x128_S128x32_S4096x32_1_0_0_1_n_n 128 rfl rfl).symm]
  refine Finset.sum_congr rfl fun k _ => ?_
  have hk := contrEquiv1_symm_val dot_S4096x128_S128x32_S4096x32_1_0_0_1_n_n 128 rfl rfl k
  have el : dot_S4096x128_S128x32_S4096x32_1_0_0_1_n_n.lhsIdx (ix2 p d) ((contrEquiv1 dot_S4096x128_S128x32_S4096x32_1_0_0_1_n_n 128 rfl rfl).symm k) = ix2 p k := funext fun c => Fin.ext (by
    match c with
    | ⟨0, _⟩ => exact compress_lhs0 _ _
    | ⟨1, _⟩ => exact (compress_lhs1 _ _).trans hk)
  have er : dot_S4096x128_S128x32_S4096x32_1_0_0_1_n_n.rhsIdx (ix2 p d) ((contrEquiv1 dot_S4096x128_S128x32_S4096x32_1_0_0_1_n_n 128 rfl rfl).symm k) = ix2 k d := funext fun c => Fin.ext (by
    match c with
    | ⟨0, _⟩ => exact (compress_rhs0 _ _).trans hk
    | ⟨1, _⟩ => exact compress_rhs1 _ _)
  rw [el, er]

/-! ## The sum over the scored features -/

/-- The lane sum of a [32, 128, 128] stack along its last axis, from zero: the plain sum of the 128 entries. -/
theorem rowSum_apply (src : FVec Ideal S32x128x128 .f32) (acc : BitVec FTy.f32.bits) (h : S32x128x128.Reduces [2] S32x128)
    (hφ : FKind.Formats FTy.f32) (hacc : acc = FKind.add.neutral FTy.f32 hφ) (r : Fin 32) (i : Fin 128) :
    multiReduction (F := Ideal) .add [2] S32x128 src acc h hφ hacc (ix2 r i)
      = ∑ k : Fin 128, src (ix3 r i k) := by
  refine (Ideal.multiReduction_add_single src acc h hφ hacc (ix2 r i)).trans ?_
  refine Finset.sum_congr rfl fun k _ => ?_
  exact congrArg src (funext fun c => Fin.ext (by match c with | ⟨0, _⟩ => rfl | ⟨1, _⟩ => rfl | ⟨2, _⟩ => rfl))

/-! ## The diagonal mask -/

/-- Two features' positions as 32-bit words are equal exactly when the features are. -/
theorem ofNat_eq_iff (i j : Fin 128) : BitVec.ofNat 32 i.val = BitVec.ofNat 32 j.val ↔ i = j := by
  constructor
  · intro h
    have ht := congrArg BitVec.toNat h
    rw [BitVec.toNat_ofNat, BitVec.toNat_ofNat] at ht
    have hi := i.isLt; have hj := j.isLt
    apply Fin.ext
    omega
  · rintro rfl; rfl

/-- The kernel's mask — row position ≠ column position, as a bit, widened and converted — is one off the diagonal and zero on it. -/
theorem mask_apply (h0 : S128x128.Iotas .tc 32 [0]) (h1 : S128x128.Iotas .tc 32 [1]) (hw : 1 < 32) (i j : Fin 128) :
    (sitofp (F := Ideal) .f32 (extui 32 (cmpi .ne (iota .tc S128x128 32 [0] h0) (iota .tc S128x128 32 [1] h1)) hw)) (ix2 i j)
      = Cert.FeatureAttention.offDiag i j := by
  rw [sitofp_extui_eq_uitofp]
  show (((IntOp.cmpi .ne (iota .tc S128x128 32 [0] h0 (ix2 i j)) (iota .tc S128x128 32 [1] h1 (ix2 i j))).toNat : ℝ) : EReal) = _
  rw [iota_single_apply, iota_single_apply]
  show (((IntOp.cmpi .ne (BitVec.ofNat 32 i.val) (BitVec.ofNat 32 j.val)).toNat : ℝ) : EReal) = _
  unfold Cert.FeatureAttention.offDiag IntOp.cmpi
  by_cases hij : i = j
  · subst hij; simp
  · have hne : BitVec.ofNat 32 i.val ≠ BitVec.ofNat 32 j.val := fun h => hij ((ofNat_eq_iff i j).mp h)
    simp [hij, hne]

/-- One off the diagonal and zero on it, as a function of an index of a [128, 128] matrix. -/
def maskFn : (⟨2, ![128, 128]⟩ : Shape).Idx → EReal := fun y => Cert.FeatureAttention.offDiag (y 0 : Fin 128) (y 1 : Fin 128)

theorem maskFn_apply (i j : Fin 128) : maskFn (ix2 i j) = Cert.FeatureAttention.offDiag i j := rfl

/-- The kernel's mask, as a whole matrix, is that function. -/
theorem mask_eq (h0 : S128x128.Iotas .tc 32 [0]) (h1 : S128x128.Iotas .tc 32 [1]) (hw : 1 < 32) :
    (sitofp (F := Ideal) .f32 (extui 32 (cmpi .ne (iota .tc S128x128 32 [0] h0) (iota .tc S128x128 32 [1] h1)) hw)) = maskFn := by
  funext y
  obtain ⟨i, j, rfl⟩ : ∃ (i j : Fin 128), y = ix2 i j := ⟨y 0, y 1, eq_ix2 y⟩
  exact mask_apply h0 h1 hw i j

/-! ## Embedding and aggregate side by side -/

/-- Two [32, 128, 64] stacks joined along the last axis: coordinates below 64 read the first, the others the second. -/
theorem join_apply (a b : (⟨3, ![32, 128, 64]⟩ : Shape).Idx → α)
    (h : Shape.Concatenates [(⟨3, ![32, 128, 64]⟩ : Shape), ⟨3, ![32, 128, 64]⟩] ⟨3, ![32, 128, 128]⟩ 2)
    (r : Fin 32) (i k : Fin 128) :
    concatenate ⟨3, ![32, 128, 128]⟩ 2 [⟨⟨3, ![32, 128, 64]⟩, a⟩, ⟨⟨3, ![32, 128, 64]⟩, b⟩] h (ix3 r i k)
      = if hk : k.val < 64 then a (ix3 r i ⟨k.val, hk⟩) else b (ix3 r i ⟨k.val - 64, by have := k.isLt; omega⟩) := by
  by_cases hk : k.val < 64
  · rw [dif_pos hk]
    exact concatenate_pair_apply_left 2 a b h (ix3 r i k) rfl (ix3 r i ⟨k.val, hk⟩)
      (fun c => by match c with | ⟨0, _⟩ => rfl | ⟨1, _⟩ => rfl | ⟨2, _⟩ => rfl)
  · rw [dif_neg hk]
    exact concatenate_pair_apply_right 2 a b h (ix3 r i k) rfl rfl (ix3 r i ⟨k.val - 64, by have := k.isLt; omega⟩)
      (fun c hc => by match c with | ⟨0, _⟩ => rfl | ⟨1, _⟩ => rfl | ⟨2, _⟩ => exact absurd rfl hc)
      (by show (k.val - 64) + 64 = k.val; omega)

end Cert.KernelIdeal.BlockOps

end
-- ==== Proof.KernelBody.lean ====
/-
  The kernel's body as the row specification: what one grid point computes for row r of its block.

  The body's arithmetic is four pure terms of the blocks it loads: the embedding of every (row, feature) (`k0_pay2`; `k0_pay3` is
  the same stack in the narrower float format, which at the extended reals is the same function), the scores before clipping
  (`k0_pay4`), and the stored result (`k0_pay1`) as a function of the embedding, the scores and the compression matrix. Read at row r
  of the block these are the specification's `emb`, `rawScore` and `out` of that row's values and flags: every operation of the body
  acts on each row of the block separately, so row r of the result depends on row r of the two per-row inputs and on the parameter
  tables only.
-/
import proofs.«157175_j68521908240971_1_alg».proof.Proof.Gen.KernelIdeal.Skeleton
import proofs.«157175_j68521908240971_1_alg».proof.Proof.KernelOps
import proofs.«157175_j68521908240971_1_alg».proof.Proof.Spec

noncomputable section

namespace Cert.KernelIdeal.BlockValue

open Cert.KernelIdeal Cert.KernelIdeal.Facts₀ Cert.KernelIdeal.Gen Cert.KernelIdeal.BlockOps Cert.FeatureAttention
open Idealize.ShloMosaic Idealize.ShloMosaic.ValueIdx

/-- The exponential of a stack, entry by entry. -/
theorem exp_apply {s : Shape} {φ : FTy} (a : FVec Ideal s φ) (i : s.Idx) : exp a i = Ideal.exp (a i) := rfl

/-- Row r of the embedding stack is the row's embedding: value times the first table, flag minus value times the second, one minus
    flag times the third. -/
theorem embedding_eq (v0 v2 : Vec Ideal S32x128 .f32) (v4 v5 v6 : Vec Ideal S128x64 .f32) (r : Fin 32) (i : Fin 128) (e : Fin 64) :
    k0_pay2 (F := Ideal) v0 v2 v4 v5 v6 (ix3 r i e)
      = emb (fun f => v0 (ix2 r f)) (fun f => v2 (ix2 r f)) (fun f c => v4 (ix2 f c)) (fun f c => v5 (ix2 f c))
          (fun f c => v6 (ix2 f c)) i e := by
  unfold k0_pay2 emb
  simp only [addf_apply, mulf_apply, subf_apply, broadcast_apply, bcastLast, bcastRows, castLast, castLead, shapeCast_self]
  rfl

/-- Row r of the score stack, before clipping: the weighted inner product of feature i's embedding with feature j's, plus i's bias. -/
theorem rawScore_eq (v0 v2 : Vec Ideal S32x128 .f32) (v4 v5 v6 v7 : Vec Ideal S128x64 .f32) (v8 : Vec Ideal S128x1 .f32)
    (r : Fin 32) (i j : Fin 128) :
    k0_pay4 (F := Ideal) v0 v2 v4 v5 v6 v7 v8 (ix3 r i j)
      = rawScore (emb (fun f => v0 (ix2 r f)) (fun f => v2 (ix2 r f)) (fun f c => v4 (ix2 f c)) (fun f c => v5 (ix2 f c))
          (fun f c => v6 (ix2 f c))) (fun f c => v7 (ix2 f c)) (fun f => v8 (ix2 f (0 : Fin 1))) i j := by
  unfold k0_pay4 k0_pay3 rawScore
  simp only [addf_apply, scoreProduct_apply, truncf_apply, mulf_apply, embedding_eq, bcastRows, castLead, bcastBias, shapeCast_self]

set_option maxHeartbeats 4000000 in
/-- Row r of the stored result: the specification's `out` of row r of the embedding stack, row r of the score stack and the
    compression matrix — clip, exponential, diagonal removed, normalized, averaged, joined with the embedding, rectified, compressed. -/
theorem result_eq (v10 : Vec Ideal S128x32 .f32) (v29 : FVec Ideal S32x128x64 .f32) (v33 : FVec Ideal S32x128x64 .bf16)
    (v38 : FVec Ideal S32x128x128 .f32) (h33 : ∀ y, v33 y = v29 y) (r : Fin 32) (i : Fin 128) (d : Fin 32) :
    k0_pay1 (F := Ideal) v10 v29 v33 v38 (Scalar.ofBits .f32 0xC0A00000#32) (Scalar.ofBits .f32 0x40A00000#32) (ix3 r i d)
      = out (fun f c => v29 (ix3 r f c)) (fun f g => v38 (ix3 r f g)) (fun k c => v10 (ix2 k c)) i d := by
  unfold k0_pay1 out act agg attn weight
  -- the index pushed through every operation but the lane sum and the mask, whose printed axis lists carry their own
  -- proofs that the rank is not zero: those two are rewritten up to definitional unfolding, then the index is pushed on
  simp only [castUnflat, compressProduct_apply, truncf_apply, castFlat, maximumf_apply, minimumf_apply, broadcast_apply, join_apply,
    mulf_apply, averageProduct_apply, divf_apply, addf_apply, bcastLast, castLast, bcastRows, castLead, exp_apply, h33,
    Ideal.ofBits_def, Ideal.ofBits_zero_f32]
  erw [mask_eq]
  erw [rowSum_apply]
  simp only [mulf_apply, exp_apply, minimumf_apply, maximumf_apply, broadcast_apply, bcastRows, castLead, maskFn_apply,
    Ideal.ofBits_def]

/-- The whole stored payload, from the eight blocks the body loads: row r of the result is the row specification of row r of the
    value block and of the flag block, with the six parameter tables (the bias a column of one entry per feature). The narrower
    copy of the embedding is the embedding itself on the extended reals. -/
theorem body_eq (x0 x1 : Vec Ideal S32x128 .f32) (x2 x3 x4 x5 : Vec Ideal S128x64 .f32) (x6 : Vec Ideal S128x1 .f32)
    (x7 : Vec Ideal S128x32 .f32) (r : Fin 32) (i : Fin 128) (d : Fin 32) :
    k0_pay1 (F := Ideal) x7 (k0_pay2 x0 x1 x2 x3 x4) (k0_pay3 x0 x1 x2 x3 x4) (k0_pay4 x0 x1 x2 x3 x4 x5 x6)
        (Scalar.ofBits .f32 0xC0A00000#32) (Scalar.ofBits .f32 0x40A00000#32) (ix3 r i d)
      = row (fun f => x0 (ix2 r f)) (fun f => x1 (ix2 r f)) (fun f c => x2 (ix2 f c)) (fun f c => x3 (ix2 f c))
          (fun f c => x4 (ix2 f c)) (fun f c => x5 (ix2 f c)) (fun f => x6 (ix2 f (0 : Fin 1))) (fun k c => x7 (ix2 k c)) i d := by
  rw [result_eq x7 (k0_pay2 x0 x1 x2 x3 x4) (k0_pay3 x0 x1 x2 x3 x4) (k0_pay4 x0 x1 x2 x3 x4 x5 x6) (fun _ => rfl) r i d]
  unfold row
  simp only [embedding_eq, rawScore_eq]

end Cert.KernelIdeal.BlockValue

end
-- ==== Proof.KernelValue.lean ====
/-
  The kernel program's result array.

  The host lines before the region flatten (batch, time) to one axis of 64 · 48 = 3072 rows — row 48 b + t is position (b, t) —,
  lay each batch's observation flags along its 48 times, and view the bias as a column. The region runs 96 grid points; point t
  takes rows 32 t … 32 t + 31 of the value and flag arrays and the whole of every parameter table, and writes rows 32 t … 32 t + 31
  of a [3072, 128, 32] array. The body treats the rows of a block separately (Proof/KernelBody.lean), so what point t writes is block
  t of ONE function of the region-entry arrays: entry (n, i, d) is the row specification of row n of the value and flag arrays, at
  feature i and compressed coordinate d. The 96 blocks tile the array, so after the run the array is that function; the host line
  after the region lays each position's 128 · 32 entries along one axis, entry q being feature q / 32, coordinate q % 32. Read
  back through the host lines, position (b, t)'s values are the argument's and its flags are batch b's.
-/
import proofs.«157175_j68521908240971_1_alg».proof.Proof.Gen.KernelIdeal.Frame
import proofs.«157175_j68521908240971_1_alg».proof.Proof.KernelBody
import proofs.«157175_j68521908240971_1_alg».proof.Proof.Spec
import Idealize.ShloMosaic.Lib.Pipeline.Value
import Idealize.ShloMosaic.Lib.StableHlo.Run
import Idealize.ShloMosaic.PureOps.Ideal

set_option maxRecDepth 16384

noncomputable section

namespace Cert.KernelIdeal.ArrayValue

open Cert.KernelIdeal Cert.KernelIdeal.Gen Cert.KernelIdeal.BlockValue Cert.FeatureAttention
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The specification respects equal data -/

/-- Equal values, flags, tables and coordinates give equal results. -/
theorem row_congr {xr xr' mr mr' : Fin 128 → EReal} {e0 e0' e1 e1' em em' aw aw' : Fin 128 → Fin 64 → EReal}
    {ab ab' : Fin 128 → EReal} {cw cw' : Fin 128 → Fin 32 → EReal} {i i' : Fin 128} {d d' : Fin 32}
    (hx : ∀ f, xr f = xr' f) (hm : ∀ f, mr f = mr' f) (h0 : ∀ f e, e0 f e = e0' f e) (h1 : ∀ f e, e1 f e = e1' f e)
    (h2 : ∀ f e, em f e = em' f e) (h3 : ∀ f e, aw f e = aw' f e) (hb : ∀ f, ab f = ab' f) (hc : ∀ k e, cw k e = cw' k e)
    (hi : i = i') (hd : d = d') :
    row xr mr e0 e1 em aw ab cw i d = row xr' mr' e0' e1' em' aw' ab' cw' i' d' := by
  obtain rfl : xr = xr' := funext hx
  obtain rfl : mr = mr' := funext hm
  obtain rfl : e0 = e0' := funext fun f => funext (h0 f)
  obtain rfl : e1 = e1' := funext fun f => funext (h1 f)
  obtain rfl : em = em' := funext fun f => funext (h2 f)
  obtain rfl : aw = aw' := funext fun f => funext (h3 f)
  obtain rfl : ab = ab' := funext hb
  obtain rfl : cw = cw' := funext fun k => funext (hc k)
  subst hi hd
  rfl

/-! ## The host lines before the region -/

/-- The observation flag of (batch, feature): one where the mask is set at some time, zero elsewhere — the mask summed over time,
    compared with zero, converted. -/
def flags (mask : (⟨S64x48x128, .i32⟩ : BufTy).Contents (Elt Ideal)) : (⟨S64x128, .f32⟩ : BufTy).Contents (Elt Ideal) :=
  uitofp (F := Ideal) .f32 (cmpi .ne (Host.reduce IntOp.addi mask (constantI S_ 32 0#32) reducesTo_S64x48x128_S64x128_d1 h_S_)
    (broadcastInDim S64x128 ![] bcast_S_S64x128 (constantI S_ 32 0#32)))

/-- Position (b, t) on the flattened axis. -/
def pos (b : Fin 64) (t : Fin 48) : Fin 3072 := ⟨b.val * 48 + t.val, by have := b.isLt; have := t.isLt; omega⟩

/-- The region finds the values flattened to rows. -/
theorem entry_values (c : Dev nD) :
    (V m c main_v7 : S3072x128.Idx → EReal) = shapeCast S3072x128 (m ((c : Thread nD τ).loc main_arg0)) shapeCasts_S64x48x128_S3072x128 := by
  show StableHlo.after hostOps0 (fun b => m (c, b)) (Proc.devRef .tc main_v7) = _
  after_results
  rfl

/-- The region finds each batch's flags laid along its times, flattened to rows. -/
theorem entry_flags (c : Dev nD) :
    (V m c main_v6 : S3072x128.Idx → EReal)
      = shapeCast S3072x128 (broadcastInDim S64x48x128 ![0, 1, 2] bcast_S64x1x128_S64x48x128_0_1_2
          (broadcastInDim S64x1x128 ![0, 2] bcast_S64x128_S64x1x128_0_2 (flags (m ((c : Thread nD τ).loc main_arg1))))) shapeCasts_S64x48x128_S3072x128 := by
  show StableHlo.after hostOps0 (fun b => m (c, b)) (Proc.devRef .tc main_v6) = _
  after_results
  rfl

/-- The region finds the bias as a column. -/
theorem entry_bias (c : Dev nD) :
    (V m c main_v8 : S128x1.Idx → EReal) = shapeCast S128x1 (m ((c : Thread nD τ).loc main_arg6)) shapeCasts_S128_S128x1 := by
  show StableHlo.after hostOps0 (fun b => m (c, b)) (Proc.devRef .tc main_v8) = _
  after_results
  rfl

/-- Row 48 b + t of the value array is position (b, t) of the argument. -/
theorem values_at (c : Dev nD) (b : Fin 64) (t : Fin 48) (f : Fin 128) :
    (V m c main_v7 : S3072x128.Idx → EReal) (ix2 (pos b t) f) = ((m ((c : Thread nD τ).loc main_arg0)) : S64x48x128.Idx → EReal) (ix3 b t f) := by
  rw [entry_values]
  refine shapeCast_apply _ _ (ix2 (pos b t) f) (ix3 b t f) ?_
  rw [Shape.rowMajor_val_two, Shape.rowMajor_val_three]
  rfl

/-- Row 48 b + t of the flag array is batch b's flags. -/
theorem flags_at (c : Dev nD) (b : Fin 64) (t : Fin 48) (f : Fin 128) :
    (V m c main_v6 : S3072x128.Idx → EReal) (ix2 (pos b t) f) = flags (m ((c : Thread nD τ).loc main_arg1)) (ix2 b f) := by
  rw [entry_flags]
  refine (shapeCast_apply _ _ (ix2 (pos b t) f) (ix3 b t f) ?_).trans ?_
  · rw [Shape.rowMajor_val_two, Shape.rowMajor_val_three]
    rfl
  refine (broadcastInDim_apply _ _ _ (ix3 b t f) (ix3 b (0 : Fin 1) f) ?_).trans ?_
  · intro a
    match a with
    | ⟨0, _⟩ => rfl
    | ⟨1, _⟩ => rfl
    | ⟨2, _⟩ => rfl
  refine broadcastInDim_apply _ _ _ (ix3 b (0 : Fin 1) f) (ix2 b f) ?_
  intro a
  match a with
  | ⟨0, _⟩ => rfl
  | ⟨1, _⟩ => rfl

/-- The bias column's entry for feature f is the argument's. -/
theorem bias_at (c : Dev nD) (f : Fin 128) :
    (V m c main_v8 : S128x1.Idx → EReal) (ix2 f (0 : Fin 1)) = ((m ((c : Thread nD τ).loc main_arg6)) : S128.Idx → EReal) (ix1 f) := by
  rw [entry_bias]
  refine shapeCast_apply _ _ (ix2 f (0 : Fin 1)) (ix1 f) ?_
  rw [Shape.rowMajor_val_two, Shape.rowMajor_val_one]
  show f.val = f.val * 1 + 0
  omega

/-! ## What the region writes -/

/-- The [3072, 128, 32] array the region leaves, as one function of the region-entry arrays: entry (n, i, d) is the row
    specification of row n, at feature i and compressed coordinate d. -/
def blockResult (c : Dev nD) : S3072x128x32.Idx → EReal := fun y =>
  row (fun f => (V m c main_v7 : S3072x128.Idx → EReal) (ix2 (y 0 : Fin 3072) f))
    (fun f => (V m c main_v6 : S3072x128.Idx → EReal) (ix2 (y 0 : Fin 3072) f))
    (fun f e => (V m c main_arg2 : S128x64.Idx → EReal) (ix2 f e)) (fun f e => (V m c main_arg3 : S128x64.Idx → EReal) (ix2 f e))
    (fun f e => (V m c main_arg4 : S128x64.Idx → EReal) (ix2 f e)) (fun f e => (V m c main_arg5 : S128x64.Idx → EReal) (ix2 f e))
    (fun f => (V m c main_v8 : S128x1.Idx → EReal) (ix2 f (0 : Fin 1)))
    (fun k e => (V m c main_arg7 : S128x32.Idx → EReal) (ix2 k e)) (y 1 : Fin 128) (y 2 : Fin 32)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided over the 96 points: the two per-row windows move with the output along the row axis and stay
    at zero on the feature axis, the six tables stay at zero, the output stays at zero on its last two axes. -/
theorem index_facts : ∀ t : Fin cfg0.N,
    win0_0.index t (0 : Fin 2) = win0_8.index t (0 : Fin 3) ∧ win0_0.index t (1 : Fin 2) = 0
    ∧ win0_1.index t (0 : Fin 2) = win0_8.index t (0 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (1 : Fin 3) = 0 ∧ win0_8.index t (2 : Fin 3) = 0 ∧ win0_8.index t (0 : Fin 3) < 96 :=
  (by decide +kernel : ∀ t : Fin grid0.N, _)

/-- Every block of 32 rows is some point's. -/
theorem index_onto : ∀ q : Fin 96, ∃ t : Fin cfg0.N, win0_8.index t (0 : Fin 3) = q.val :=
  (by decide +kernel : ∀ q : Fin 96, ∃ t : Fin grid0.N, win0_8.index t (0 : Fin 3) = q.val)

set_option maxHeartbeats 4000000 in
/-- What point t writes back is block t of `blockResult`. -/
theorem flushed_eq (c : Dev nD) (t : Fin cfg0.N) :
    (dats m 0 c).flushed 8 t = ((cfg0.win 8).blk t).view.read (Elt Ideal) (blockResult m c) := by
  show (cfg0.win 8).cut (grid0.coords t) ((dats m 0 c).after 8 t) = _
  rw [after0_8]
  unfold out0_8
  rw [View.canon_unit_zero zero3]
  simp only [View.ld_unit_zero (S := S32x128) zero2, View.ld_unit_zero (S := S128x64) zero2, View.ld_unit_zero (S := S128x1) zero2,
    View.ld_unit_zero (S := S128x32) zero2]
  obtain ⟨a0, a1, b0, b1, c0, c1, d0, d1, e0', e1', f0, f1, g0, g1, h0, h1, o1, o2, o0⟩ := index_facts t
  funext y
  obtain ⟨r, i, d, rfl⟩ : ∃ (r : Fin 32) (i : Fin 128) (d : Fin 32), y = ix3 r i d := ⟨y 0, y 1, y 2, eq_ix3 y⟩
  show k0_pay1 (iblk m c 7 t) (k0_pay2 (iblk m c 0 t) (iblk m c 1 t) (iblk m c 2 t) (iblk m c 3 t) (iblk m c 4 t)) (k0_pay3 (iblk m c 0 t) (iblk m c 1 t) (iblk m c 2 t) (iblk m c 3 t) (iblk m c 4 t)) (k0_pay4 (iblk m c 0 t) (iblk m c 1 t) (iblk m c 2 t) (iblk m c 3 t) (iblk m c 4 t) (iblk m c 5 t) (iblk m c 6 t))
      (Scalar.ofBits .f32 0xC0A00000#32) (Scalar.ofBits .f32 0x40A00000#32) (ix3 r i d)
    = blockResult m c (((cfg0.win 8).blk t).view.emb (ix3 r i d))
  refine (body_eq (iblk m c 0 t) (iblk m c 1 t) (iblk m c 2 t) (iblk m c 3 t) (iblk m c 4 t) (iblk m c 5 t) (iblk m c 6 t) (iblk m c 7 t) r i d).trans ?_
  unfold blockResult
  refine row_congr (fun f => ?_) (fun f => ?_) (fun f e => ?_) (fun f e => ?_) (fun f e => ?_) (fun f e => ?_) (fun f => ?_)
    (fun f e => ?_) (Fin.ext ?_) (Fin.ext ?_)
  · -- the values: row r of block t is row 32 t + r
    show V m c main_v7 (((cfg0.win 0).blk t).view.emb (ix2 r f)) = V m c main_v7 _
    refine congrArg (V m c main_v7) (funext fun a => Fin.ext ?_)
    match a with
    | ⟨0, _⟩ => show win0_0.index t (0 : Fin 2) * 32 + 1 * r.val = win0_8.index t (0 : Fin 3) * 32 + 1 * r.val; omega
    | ⟨1, _⟩ => show win0_0.index t (1 : Fin 2) * 128 + 1 * f.val = f.val; omega
  · -- the flags: the same rows
    show V m c main_v6 (((cfg0.win 1).blk t).view.emb (ix2 r f)) = V m c main_v6 _
    refine congrArg (V m c main_v6) (funext fun a => Fin.ext ?_)
    match a with
    | ⟨0, _⟩ => show win0_1.index t (0 : Fin 2) * 32 + 1 * r.val = win0_8.index t (0 : Fin 3) * 32 + 1 * r.val; omega
    | ⟨1, _⟩ => show win0_1.index t (1 : Fin 2) * 128 + 1 * f.val = f.val; omega
  · -- window 2: the whole table, at every point
    show V m c main_arg2 (((cfg0.win 2).blk t).view.emb (ix2 f e)) = V m c main_arg2 (ix2 f e)
    refine congrArg (V m c main_arg2) (funext fun a => Fin.ext ?_)
    match a with
    | ⟨0, _⟩ => show win0_2.index t (0 : Fin 2) * 128 + 1 * f.val = f.val; omega
    | ⟨1, _⟩ => show win0_2.index t (1 : Fin 2) * 64 + 1 * e.val = e.val; omega
  · -- window 3: the whole table, at every point
    show V m c main_arg3 (((cfg0.win 3).blk t).view.emb (ix2 f e)) = V m c main_arg3 (ix2 f e)
    refine congrArg (V m c main_arg3) (funext fun a => Fin.ext ?_)
    match a with
    | ⟨0, _⟩ => show win0_3.index t (0 : Fin 2) * 128 + 1 * f.val = f.val; omega
    | ⟨1, _⟩ => show win0_3.index t (1 : Fin 2) * 64 + 1 * e.val = e.val; omega
  · -- window 4: the whole table, at every point
    show V m c main_arg4 (((cfg0.win 4).blk t).view.emb (ix2 f e)) = V m c main_arg4 (ix2 f e)
    refine congrArg (V m c main_arg4) (funext fun a => Fin.ext ?_)
    match a with
    | ⟨0, _⟩ => show win0_4.index t (0 : Fin 2) * 128 + 1 * f.val = f.val; omega
    | ⟨1, _⟩ => show win0_4.index t (1 : Fin 2) * 64 + 1 * e.val = e.val; omega
  · -- window 5: the whole table, at every point
    show V m c main_arg5 (((cfg0.win 5).blk t).view.emb (ix2 f e)) = V m c main_arg5 (ix2 f e)
    refine congrArg (V m c main_arg5) (funext fun a => Fin.ext ?_)
    match a with
    | ⟨0, _⟩ => show win0_5.index t (0 : Fin 2) * 128 + 1 * f.val = f.val; omega
    | ⟨1, _⟩ => show win0_5.index t (1 : Fin 2) * 64 + 1 * e.val = e.val; omega
  · -- the bias column
    show V m c main_v8 (((cfg0.win 6).blk t).view.emb (ix2 f (0 : Fin 1))) = V m c main_v8 (ix2 f (0 : Fin 1))
    refine congrArg (V m c main_v8) (funext fun a => Fin.ext ?_)
    match a with
    | ⟨0, _⟩ => show win0_6.index t (0 : Fin 2) * 128 + 1 * f.val = f.val; omega
    | ⟨1, _⟩ => show win0_6.index t (1 : Fin 2) * 1 + 1 * 0 = 0; omega
  · -- window 7: the whole table, at every point
    show V m c main_arg7 (((cfg0.win 7).blk t).view.emb (ix2 f e)) = V m c main_arg7 (ix2 f e)
    refine congrArg (V m c main_arg7) (funext fun a => Fin.ext ?_)
    match a with
    | ⟨0, _⟩ => show win0_7.index t (0 : Fin 2) * 128 + 1 * f.val = f.val; omega
    | ⟨1, _⟩ => show win0_7.index t (1 : Fin 2) * 32 + 1 * e.val = e.val; omega
  · show i.val = win0_8.index t (1 : Fin 3) * 128 + 1 * i.val; omega
  · show d.val = win0_8.index t (2 : Fin 3) * 32 + 1 * d.val; omega

/-- Every entry of the array lies in the block of its row's group of 32. -/
theorem cover (c : Dev nD) (y : ((cfg0.win 8).arr.view.loc (c.tc : Thread nD τ)).2.ty.Idx) :
    ∃ t : Fin cfg0.N, (cfg0.win 8).flush t = true ∧ y ∈ ((cfg0.win 8).blk t).view.set := by
  have y0 : (y 0).val < 3072 := (y 0).isLt
  have y1 : (y 1).val < 128 := (y 1).isLt
  have y2 : (y 2).val < 32 := (y 2).isLt
  obtain ⟨t, ht⟩ := index_onto ⟨(y 0).val / 32, by omega⟩
  obtain ⟨_, _, _, _, _, _, _, _, _, _, _, _, _, _, _, _, o1, o2, _⟩ := index_facts t
  have ht' : win0_8.index t (0 : Fin 3) = (y 0).val / 32 := ht
  refine ⟨t, flush0_8 t, ?_⟩
  show y ∈ ((View.whole main_v9).slice (win0_8.rect t)).set
  rw [View.set_slice_whole, Rect.mem_set_unit]
  intro a
  match a with
  | ⟨0, _⟩ => show win0_8.index t (0 : Fin 3) * 32 ≤ (y 0).val ∧ (y 0).val < win0_8.index t (0 : Fin 3) * 32 + 32; omega
  | ⟨1, _⟩ => show win0_8.index t (1 : Fin 3) * 128 ≤ (y 1).val ∧ (y 1).val < win0_8.index t (1 : Fin 3) * 128 + 128; omega
  | ⟨2, _⟩ => show win0_8.index t (2 : Fin 3) * 32 ≤ (y 2).val ∧ (y 2).val < win0_8.index t (2 : Fin 3) * 32 + 32; omega

/-- After the run the region's array is `blockResult`. -/
theorem final (c : Dev nD) : (dats m 0 c).arrAt 8 cfg0.N = blockResult m c :=
  (dats m 0 c).arrAt_eq_of_cover 8 (blockResult m c) (fun t _ => flushed_eq m c t) (cover c)

/-! ## The host line after the region, and the result read back to the arguments -/

/-- The program's result at (b, t, q): the row specification of position (b, t) — its 128 values, batch b's flags, the parameter
    arguments — at feature q / 32, compressed coordinate q % 32. -/
def result (c : Dev nD) : S64x48x4096.Idx → EReal := fun j =>
  row (fun f => ((m ((c : Thread nD τ).loc main_arg0)) : S64x48x128.Idx → EReal) (ix3 (j 0 : Fin 64) (j 1 : Fin 48) f))
    (fun f => flags (m ((c : Thread nD τ).loc main_arg1)) (ix2 (j 0 : Fin 64) f))
    (fun f e => ((m ((c : Thread nD τ).loc main_arg2)) : S128x64.Idx → EReal) (ix2 f e)) (fun f e => ((m ((c : Thread nD τ).loc main_arg3)) : S128x64.Idx → EReal) (ix2 f e))
    (fun f e => ((m ((c : Thread nD τ).loc main_arg4)) : S128x64.Idx → EReal) (ix2 f e)) (fun f e => ((m ((c : Thread nD τ).loc main_arg5)) : S128x64.Idx → EReal) (ix2 f e))
    (fun f => ((m ((c : Thread nD τ).loc main_arg6)) : S128.Idx → EReal) (ix1 f)) (fun k e => ((m ((c : Thread nD τ).loc main_arg7)) : S128x32.Idx → EReal) (ix2 k e))
    (⟨(j 2).val / 32, by have h : (j 2).val < 4096 := (j 2).isLt; omega⟩ : Fin 128)
    (⟨(j 2).val % 32, by omega⟩ : Fin 32)

/-- The host line after the region reshapes the region's array. -/
theorem tail_eq (c : Dev nD) :
    (Pipeline.afterTail₀ cfgs (dats m) 0 (V0 m) [hostOps1] c main_v10 : S64x48x4096.Idx → EReal)
      = shapeCast S64x48x4096 (blockResult m c) shapeCasts_S3072x128x32_S64x48x4096 := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.tc.devRef main_v9)
      = blockResult m c from (Pipeline.withArrays_arr spec0 launch0.win.arr_inj c _ _ 8).trans (final m c)]
  rfl

/-- The program's result, read back to the arguments. -/
theorem tail_result (c : Dev nD) :
    (Pipeline.afterTail₀ cfgs (dats m) 0 (V0 m) [hostOps1] c main_v10 : S64x48x4096.Idx → EReal) = result m c := by
  rw [tail_eq]
  funext j
  obtain ⟨b, t, q, rfl⟩ : ∃ (b : Fin 64) (t : Fin 48) (q : Fin 4096), j = ix3 b t q := ⟨j 0, j 1, j 2, eq_ix3 j⟩
  have hq := q.isLt
  refine (shapeCast_apply _ _ (ix3 b t q) (ix3 (pos b t) (⟨q.val / 32, by omega⟩ : Fin 128) (⟨q.val % 32, by omega⟩ : Fin 32)) ?_).trans ?_
  · rw [Shape.rowMajor_val_three, Shape.rowMajor_val_three]
    show ((b.val * 48 + t.val) * 128 + q.val / 32) * 32 + q.val % 32 = (b.val * 48 + t.val) * 4096 + q.val
    omega
  unfold blockResult result
  refine row_congr (fun f => values_at m c b t f) (fun f => flags_at m c b t f)
    (fun f e => congrFun (V_main_arg2 m c) (ix2 f e)) (fun f e => congrFun (V_main_arg3 m c) (ix2 f e))
    (fun f e => congrFun (V_main_arg4 m c) (ix2 f e)) (fun f e => congrFun (V_main_arg5 m c) (ix2 f e))
    (fun f => bias_at m c f) (fun k e => congrFun (V_main_arg7 m c) (ix2 k e)) rfl rfl

/-! ## The run -/

/-- Every weakly fair execution of the program terminates with the result array at `result` and the arguments unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v10 (Pipeline.mem_restRefs_of main_v10 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c)))⟩)
    (run_main m ρ)

end Cert.KernelIdeal.ArrayValue

end
-- ==== Proof.lean ====
/-
  The kernel and its reference compute the same feature-attention layer on the extended reals.

  Inputs: values x[b, t, f] and an integer mask[b, t, f] over 64 batches, 48 times and 128 features, three embedding tables, an
  attention weight table (all [128, 64]), a bias [128] and a compression matrix [128, 32]. A feature's observation flag is one
  number per (batch, feature): whether the mask is set at some time. For each position (b, t) the layer embeds every feature from
  its value and flag, scores every pair of features by a weighted inner product of embeddings plus a bias, clips the scores to
  [−5, 5], exponentiates, drops the diagonal, normalizes each row by its sum plus 1e-8, averages the embeddings with these
  weights and multiplies back by the feature's own embedding, rectifies embedding and aggregate side by side, and multiplies by
  the compression matrix; the result is [64, 48, 128 · 32]. Proof/Spec.lean states this for one position as `row`.

  The kernel flattens (b, t) to 3072 rows and handles 32 rows per grid point, with bfloat16 matrix products accumulated in
  float32; the reference works on the [b, t, f, ·] arrays with the clip bounds 0 and 1 written out (it multiplies the flag by
  them and divides by their difference). On the extended reals a change of float format is the identity, a matrix product into a
  zero accumulator is the plain sum, `m · 0 = 0`, `x − 0 = x`, `m · 1 = m` and `z / 1 = z` hold at the infinities too, and one minus
  the identity matrix is the off-diagonal mask. No distributivity, cancellation or reordering of a sum is involved, so the
  finiteness of the inputs is never used: both programs compute `row` of position (b, t) literally, at feature q / 32 and compressed
  coordinate q % 32 of entry q.

  Proof/KernelValue.lean reads the kernel program's run back to `row` (its body: Proof/KernelBody.lean over Proof/KernelOps.lean);
  Proof/RefValue.lean reads the reference's stages back to `row`. The three frames are the programs' runs with the result
  dropped; the idealized kernel is the printed kernel's own text, so nothing is owed for the idealization.
-/
import proofs.«157175_j68521908240971_1_alg».proof.Defs
import proofs.«157175_j68521908240971_1_alg».proof.Proof.Gen.Kernel
import proofs.«157175_j68521908240971_1_alg».proof.Proof.Gen.Kernel.Skeleton
import proofs.«157175_j68521908240971_1_alg».proof.Proof.Gen.Kernel.Launch
import proofs.«157175_j68521908240971_1_alg».proof.Proof.Gen.Kernel.Points
import proofs.«157175_j68521908240971_1_alg».proof.Proof.Gen.Kernel.Frame
import proofs.«157175_j68521908240971_1_alg».proof.Proof.Gen.KernelIdeal
import proofs.«157175_j68521908240971_1_alg».proof.Proof.Gen.KernelIdeal.Skeleton
import proofs.«157175_j68521908240971_1_alg».proof.Proof.Gen.KernelIdeal.Launch
import proofs.«157175_j68521908240971_1_alg».proof.Proof.Gen.KernelIdeal.Points
import proofs.«157175_j68521908240971_1_alg».proof.Proof.Gen.KernelIdeal.Frame
import proofs.«157175_j68521908240971_1_alg».proof.Proof.Gen.ReferenceIdeal
import proofs.«157175_j68521908240971_1_alg».proof.Proof.Gen.Pre_finite_inputs
import proofs.«157175_j68521908240971_1_alg».proof.Proof.RefRunP
import proofs.«157175_j68521908240971_1_alg».proof.Proof.RefReadP
import proofs.«157175_j68521908240971_1_alg».proof.Proof.RefValue
import proofs.«157175_j68521908240971_1_alg».proof.Proof.KernelValue
import Idealize.ShloMosaic.Adequacy
import Idealize.ShloMosaic.Init

noncomputable section

namespace Cert.Proof

open Idealize.ShloMosaic Idealize.ShloMosaic.TcCoe Idealize.ShloMosaic.ValueIdx Idealize.SL.Sem Cert.Kernel

/-- The printed kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealized kernel is the printed kernel's text: no rewrite to account for. -/
theorem preserves : Cert.preserves_Kernel_KernelIdeal := trivial

/-- The two programs name the observation flags by the same host operations. -/
theorem flags_eq (mask : (⟨Cert.KernelIdeal.S64x48x128, .i32⟩ : BufTy).Contents (Elt Ideal)) :
    Cert.KernelIdeal.ArrayValue.flags mask = Cert.ReferenceIdeal.ReadP.val_main_v3 (F := Ideal) mask := rfl

/-- From memories that agree on the arguments both programs end with the same result: the row specification of each position,
    entry by entry. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v65_eq, a0, a1, a2, a3, a4, a5, a6, a7]
  funext j
  obtain ⟨b, t, q, rfl⟩ : ∃ (b : Fin 64) (t : Fin 48) (q : Fin 4096), j = ix3 b t q := ⟨j 0, j 1, j 2, eq_ix3 j⟩
  rw [Cert.ReferenceIdeal.RowValue.reference_eq]
  show _ = Cert.KernelIdeal.ArrayValue.result m c (ix3 b t q)
  unfold Cert.KernelIdeal.ArrayValue.result
  rw [flags_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
